-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S2048x2048 : Shape := ⟨2, ![2048, 2048]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S16777216 .f32) (main_arg1 : FVec F S16777216 .f32) (main_arg2 : FVec F S2048x2048 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  main_v13
-- ==== Kernel.lean ====
abbrev S16777216 : Shape := ⟨1, ![16777216]⟩
abbrev S2048x2048 : Shape := ⟨2, ![2048, 2048]⟩
abbrev S16777216x1 : Shape := ⟨2, ![16777216, 1]⟩
abbrev S512x1 : Shape := ⟨2, ![512, 1]⟩
abbrev S512x2048 : Shape := ⟨2, ![512, 2048]⟩
abbrev S512 : Shape := ⟨1, ![512]⟩

abbrev nBuf : Space → Nat
  | .hbm => 8
  | .vmem => 7
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S2048x2048, .f32⟩
  | .hbm, ⟨3, _⟩ => ⟨S16777216x1, .f32⟩
  | .hbm, ⟨4, _⟩ => ⟨S16777216x1, .f32⟩
  | .hbm, ⟨5, _⟩ => ⟨S2048x2048, .bf16⟩
  | .hbm, ⟨6, _⟩ => ⟨S16777216x1, .f32⟩
  | .hbm, ⟨7, _⟩ => ⟨S16777216, .f32⟩
  | .local _ .vmem, ⟨0, _⟩ => ⟨S512x1, .f32⟩
  | .local _ .vmem, ⟨1, _⟩ => ⟨S512x1, .f32⟩
  | .local _ .vmem, ⟨2, _⟩ => ⟨S512x1, .f32⟩
  | .local _ .vmem, ⟨3, _⟩ => ⟨S512x1, .f32⟩
  | .local _ .vmem, ⟨4, _⟩ => ⟨S2048x2048, .bf16⟩
  | .local _ .vmem, ⟨5, _⟩ => ⟨S512x1, .f32⟩
  | .local _ .vmem, ⟨6, _⟩ => ⟨S512x1, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32768], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16777216_S16777216x1 : S16777216.ShapeCasts S16777216x1
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x2048_d1_w32 : S512x2048.Iotas .tc 32 [1]
  broadcasts_S512x1_S512x2048 : S512x1.Broadcasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  reduces_S512x2048_S512 : S512x2048.Reduces [1] S512
  shapeCasts_S512_S512x1 : S512.ShapeCasts S512x1
  shapeCasts_S16777216x1_S16777216 : S16777216x1.ShapeCasts S16777216
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S16777216x1.size a
  hwx0_0 : ∀ i : grid0.Coords, EltTy.bits .f32 = 32 ∨ (Rect.block (s := S16777216x1) S512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S16777216x1.size a
  hwx0_1 : ∀ i : grid0.Coords, EltTy.bits .f32 = 32 ∨ (Rect.block (s := S16777216x1) S512x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S16777216x1.size a
  hwx0_3 : ∀ i : grid0.Coords, EltTy.bits .f32 = 32 ∨ (Rect.block (s := S16777216x1) S512x1.size (cc0_transform_3 i) (hinb0_3 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16777216 : Shape := ⟨1, ![16777216]⟩
abbrev S2048x2048 : Shape := ⟨2, ![2048, 2048]⟩
abbrev S_ : Shape := ⟨0, ![]⟩
abbrev S16777216x1 : Shape := ⟨2, ![16777216, 1]⟩
abbrev S16777216x2 : Shape := ⟨2, ![16777216, 2]⟩

abbrev nBuf : Space → Nat
  | .hbm => 148
  | .vmem => 0
  | .smem => 0
  | _ => 0

abbrev hbmTy0_0 (i : Nat) : BufTy := match i % 128 with
  | 0 => ⟨S16777216, .f32⟩
  | 1 => ⟨S16777216, .f32⟩
  | 2 => ⟨S2048x2048, .f32⟩
  | 3 => ⟨S16777216, .f32⟩
  | 4 => ⟨S16777216, .f32⟩
  | 5 => ⟨S_, .f32⟩
  | 6 => ⟨S16777216, .f32⟩
  | 7 => ⟨S16777216, .f32⟩
  | 8 => ⟨S16777216, .i32⟩
  | 9 => ⟨S_, .i32⟩
  | 10 => ⟨S16777216, .i32⟩
  | 11 => ⟨S16777216, .i32⟩
  | 12 => ⟨S_, .i32⟩
  | 13 => ⟨S16777216, .i32⟩
  | 14 => ⟨S16777216, .i1⟩
  | 15 => ⟨S_, .i32⟩
  | 16 => ⟨S16777216, .i32⟩
  | 17 => ⟨S16777216, .i1⟩
  | 18 => ⟨S16777216, .i1⟩
  | 19 => ⟨S_, .i32⟩
  | 20 => ⟨S16777216, .i32⟩
  | 21 => ⟨S16777216, .i1⟩
  | 22 => ⟨S_, .i32⟩
  | 23 => ⟨S16777216, .i32⟩
  | 24 => ⟨S16777216, .i1⟩
  | 25 => ⟨S16777216, .i1⟩
  | 26 => ⟨S16777216, .f32⟩
  | 27 => ⟨S16777216, .f32⟩
  | 28 => ⟨S_, .f32⟩
  | 29 => ⟨S16777216, .f32⟩
  | 30 => ⟨S16777216, .f32⟩
  | 31 => ⟨S16777216, .i32⟩
  | 32 => ⟨S_, .i32⟩
  | 33 => ⟨S16777216, .i32⟩
  | 34 => ⟨S16777216, .i32⟩
  | 35 => ⟨S_, .i32⟩
  | 36 => ⟨S16777216, .i32⟩
  | 37 => ⟨S16777216, .i1⟩
  | 38 => ⟨S_, .i32⟩
  | 39 => ⟨S16777216, .i32⟩
  | 40 => ⟨S16777216, .i1⟩
  | 41 => ⟨S16777216, .i1⟩
  | 42 => ⟨S_, .i32⟩
  | 43 => ⟨S16777216, .i32⟩
  | 44 => ⟨S16777216, .i1⟩
  | 45 => ⟨S_, .i32⟩
  | 46 => ⟨S16777216, .i32⟩
  | 47 => ⟨S16777216, .i1⟩
  | 48 => ⟨S16777216, .i1⟩
  | 49 => ⟨S16777216, .i1⟩
  | 50 => ⟨S_, .i32⟩
  | 51 => ⟨S16777216, .i32⟩
  | 52 => ⟨S16777216, .i1⟩
  | 53 => ⟨S_, .i32⟩
  | 54 => ⟨S16777216, .i32⟩
  | 55 => ⟨S16777216, .i32⟩
  | 56 => ⟨S16777216, .i32⟩
  | 57 => ⟨S_, .i32⟩
  | 58 => ⟨S16777216, .i32⟩
  | 59 => ⟨S16777216, .i1⟩
  | 60 => ⟨S_, .i32⟩
  | 61 => ⟨S16777216, .i32⟩
  | 62 => ⟨S16777216, .i32⟩
  | 63 => ⟨S16777216, .i32⟩
  | 64 => ⟨S16777216x1, .i32⟩
  | 65 => ⟨S16777216x1, .i32⟩
  | 66 => ⟨S16777216x2, .i32⟩
  | 67 => ⟨S16777216, .f32⟩
  | 68 => ⟨S_, .f32⟩
  | 69 => ⟨S16777216, .f32⟩
  | 70 => ⟨S16777216, .f32⟩
  | 71 => ⟨S16777216, .f32⟩
  | 72 => ⟨S16777216, .f32⟩
  | 73 => ⟨S16777216, .i1⟩
  | 74 => ⟨S_, .i32⟩
  | 75 => ⟨S16777216, .i32⟩
  | 76 => ⟨S16777216, .i1⟩
  | 77 => ⟨S_, .i32⟩
  | 78 => ⟨S16777216, .i32⟩
  | 79 => ⟨S16777216, .i32⟩
  | 80 => ⟨S16777216, .i32⟩
  | 81 => ⟨S_, .i32⟩
  | 82 => ⟨S16777216, .i32⟩
  | 83 => ⟨S16777216, .i1⟩
  | 84 => ⟨S_, .i32⟩
  | 85 => ⟨S16777216, .i32⟩
  | 86 => ⟨S16777216, .i32⟩
  | 87 => ⟨S16777216, .i32⟩
  | 88 => ⟨S16777216x1, .i32⟩
  | 89 => ⟨S16777216x1, .i32⟩
  | 90 => ⟨S16777216x2, .i32⟩
  | 91 => ⟨S16777216, .f32⟩
  | 92 => ⟨S_, .f32⟩
  | 93 => ⟨S16777216, .f32⟩
  | 94 => ⟨S16777216, .f32⟩
  | 95 => ⟨S16777216, .f32⟩
  | 96 => ⟨S16777216, .f32⟩
  | 97 => ⟨S16777216, .i1⟩
  | 98 => ⟨S_, .i32⟩
  | 99 => ⟨S16777216, .i32⟩
  | 100 => ⟨S16777216, .i1⟩
  | 101 => ⟨S_, .i32⟩
  | 102 => ⟨S16777216, .i32⟩
  | 103 => ⟨S16777216, .i32⟩
  | 104 => ⟨S16777216, .i32⟩
  | 105 => ⟨S_, .i32⟩
  | 106 => ⟨S16777216, .i32⟩
  | 107 => ⟨S16777216, .i1⟩
  | 108 => ⟨S_, .i32⟩
  | 109 => ⟨S16777216, .i32⟩
  | 110 => ⟨S16777216, .i32⟩
  | 111 => ⟨S16777216, .i32⟩
  | 112 => ⟨S16777216x1, .i32⟩
  | 113 => ⟨S16777216x1, .i32⟩
  | 114 => ⟨S16777216x2, .i32⟩
  | 115 => ⟨S16777216, .f32⟩
  | 116 => ⟨S_, .f32⟩
  | 117 => ⟨S16777216, .f32⟩
  | 118 => ⟨S16777216, .f32⟩
  | 119 => ⟨S16777216, .f32⟩
  | 120 => ⟨S16777216, .f32⟩
  | 121 => ⟨S16777216, .i1⟩
  | 122 => ⟨S_, .i32⟩
  | 123 => ⟨S16777216, .i32⟩
  | 124 => ⟨S16777216, .i1⟩
  | 125 => ⟨S_, .i32⟩
  | 126 => ⟨S16777216, .i32⟩
  | 127 => ⟨S16777216, .i32⟩
  | _ => ⟨S16777216, .f32⟩

abbrev hbmTy0_1 (i : Nat) : BufTy := match i % 128 with
  | 0 => ⟨S16777216, .i32⟩
  | 1 => ⟨S_, .i32⟩
  | 2 => ⟨S16777216, .i32⟩
  | 3 => ⟨S16777216, .i1⟩
  | 4 => ⟨S_, .i32⟩
  | 5 => ⟨S16777216, .i32⟩
  | 6 => ⟨S16777216, .i32⟩
  | 7 => ⟨S16777216, .i32⟩
  | 8 => ⟨S16777216x1, .i32⟩
  | 9 => ⟨S16777216x1, .i32⟩
  | 10 => ⟨S16777216x2, .i32⟩
  | 11 => ⟨S16777216, .f32⟩
  | 12 => ⟨S_, .f32⟩
  | 13 => ⟨S16777216, .f32⟩
  | 14 => ⟨S16777216, .f32⟩
  | 15 => ⟨S16777216, .f32⟩
  | 16 => ⟨S16777216, .f32⟩
  | 17 => ⟨S16777216, .f32⟩
  | 18 => ⟨S16777216, .f32⟩
  | 19 => ⟨S16777216, .f32⟩
  | _ => ⟨S16777216, .f32⟩

abbrev hbmTy (i : Nat) : BufTy := match i / 128 with
  | 0 => hbmTy0_0 i
  | 1 => hbmTy0_1 i
  | _ => ⟨S16777216, .f32⟩

abbrev bufTy : (tb : Table) → Fin (tcTables nBuf tb) → BufTy
  | .hbm, ⟨i, _⟩ => hbmTy i
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_c : Ref sig .tc := ⟨.hbm, 9, rfl⟩
abbrev main_call0_v5 : Ref sig .tc := ⟨.hbm, 10, rfl⟩
abbrev main_call0_v6 : Ref sig .tc := ⟨.hbm, 11, rfl⟩
abbrev main_call0_c_0 : Ref sig .tc := ⟨.hbm, 12, rfl⟩
abbrev main_call0_v7 : Ref sig .tc := ⟨.hbm, 13, rfl⟩
abbrev main_call0_v8 : Ref sig .tc := ⟨.hbm, 14, rfl⟩
abbrev main_call0_c_1 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_2 : Ref sig .tc := ⟨.hbm, 19, rfl⟩
abbrev main_call0_v12 : Ref sig .tc := ⟨.hbm, 20, rfl⟩
abbrev main_call0_v13 : Ref sig .tc := ⟨.hbm, 21, rfl⟩
abbrev main_call0_c_3 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_call0_v17 : Ref sig .tc := ⟨.hbm, 26, rfl⟩
abbrev main_call0_v18 : Ref sig .tc := ⟨.hbm, 27, rfl⟩
abbrev main_call0_cst_4 : Ref sig .tc := ⟨.hbm, 28, rfl⟩
abbrev main_call0_v19 : Ref sig .tc := ⟨.hbm, 29, rfl⟩
abbrev main_call0_v20 : Ref sig .tc := ⟨.hbm, 30, rfl⟩
abbrev main_call0_v21 : Ref sig .tc := ⟨.hbm, 31, rfl⟩
abbrev main_call0_c_5 : Ref sig .tc := ⟨.hbm, 32, rfl⟩
abbrev main_call0_v22 : Ref sig .tc := ⟨.hbm, 33, rfl⟩
abbrev main_call0_v23 : Ref sig .tc := ⟨.hbm, 34, rfl⟩
abbrev main_call0_c_6 : Ref sig .tc := ⟨.hbm, 35, rfl⟩
abbrev main_call0_v24 : Ref sig .tc := ⟨.hbm, 36, rfl⟩
abbrev main_call0_v25 : Ref sig .tc := ⟨.hbm, 37, rfl⟩
abbrev main_call0_c_7 : Ref sig .tc := ⟨.hbm, 38, rfl⟩
abbrev main_call0_v26 : Ref sig .tc := ⟨.hbm, 39, rfl⟩
abbrev main_call0_v27 : Ref sig .tc := ⟨.hbm, 40, rfl⟩
abbrev main_call0_v28 : Ref sig .tc := ⟨.hbm, 41, rfl⟩
abbrev main_call0_c_8 : Ref sig .tc := ⟨.hbm, 42, rfl⟩
abbrev main_call0_v29 : Ref sig .tc := ⟨.hbm, 43, rfl⟩
abbrev main_call0_v30 : Ref sig .tc := ⟨.hbm, 44, rfl⟩
abbrev main_call0_c_9 : Ref sig .tc := ⟨.hbm, 45, rfl⟩
abbrev main_call0_v31 : Ref sig .tc := ⟨.hbm, 46, rfl⟩
abbrev main_call0_v32 : Ref sig .tc := ⟨.hbm, 47, rfl⟩
abbrev main_call0_v33 : Ref sig .tc := ⟨.hbm, 48, rfl⟩
abbrev main_call0_v34 : Ref sig .tc := ⟨.hbm, 49, rfl⟩
abbrev main_call0_c_10 : Ref sig .tc := ⟨.hbm, 50, rfl⟩
abbrev main_call0_v35 : Ref sig .tc := ⟨.hbm, 51, rfl⟩
abbrev main_call0_v36 : Ref sig .tc := ⟨.hbm, 52, rfl⟩
abbrev main_call0_c_11 : Ref sig .tc := ⟨.hbm, 53, rfl⟩
abbrev main_call0_v37 : Ref sig .tc := ⟨.hbm, 54, rfl⟩
abbrev main_call0_v38 : Ref sig .tc := ⟨.hbm, 55, rfl⟩
abbrev main_call0_v39 : Ref sig .tc := ⟨.hbm, 56, rfl⟩
abbrev main_call0_c_12 : Ref sig .tc := ⟨.hbm, 57, rfl⟩
abbrev main_call0_v40 : Ref sig .tc := ⟨.hbm, 58, rfl⟩
abbrev main_call0_v41 : Ref sig .tc := ⟨.hbm, 59, rfl⟩
abbrev main_call0_c_13 : Ref sig .tc := ⟨.hbm, 60, rfl⟩
abbrev main_call0_v42 : Ref sig .tc := ⟨.hbm, 61, rfl⟩
abbrev main_call0_v43 : Ref sig .tc := ⟨.hbm, 62, rfl⟩
abbrev main_call0_v44 : Ref sig .tc := ⟨.hbm, 63, rfl⟩
abbrev main_call0_v45 : Ref sig .tc := ⟨.hbm, 64, rfl⟩
abbrev main_call0_v46 : Ref sig .tc := ⟨.hbm, 65, rfl⟩
abbrev main_call0_v47 : Ref sig .tc := ⟨.hbm, 66, rfl⟩
abbrev main_call0_v48 : Ref sig .tc := ⟨.hbm, 67, rfl⟩
abbrev main_call0_cst_14 : Ref sig .tc := ⟨.hbm, 68, rfl⟩
abbrev main_call0_call0_v0 : Ref sig .tc := ⟨.hbm, 69, rfl⟩
abbrev main_call0_v49 : Ref sig .tc := ⟨.hbm, 70, rfl⟩
abbrev main_call0_v50 : Ref sig .tc := ⟨.hbm, 71, rfl⟩
abbrev main_call0_v51 : Ref sig .tc := ⟨.hbm, 72, rfl⟩
abbrev main_call0_v52 : Ref sig .tc := ⟨.hbm, 73, rfl⟩
abbrev main_call0_c_15 : Ref sig .tc := ⟨.hbm, 74, rfl⟩
abbrev main_call0_v53 : Ref sig .tc := ⟨.hbm, 75, rfl⟩
abbrev main_call0_v54 : Ref sig .tc := ⟨.hbm, 76, rfl⟩
abbrev main_call0_c_16 : Ref sig .tc := ⟨.hbm, 77, rfl⟩
abbrev main_call0_v55 : Ref sig .tc := ⟨.hbm, 78, rfl⟩
abbrev main_call0_v56 : Ref sig .tc := ⟨.hbm, 79, rfl⟩
abbrev main_call0_v57 : Ref sig .tc := ⟨.hbm, 80, rfl⟩
abbrev main_call0_c_17 : Ref sig .tc := ⟨.hbm, 81, rfl⟩
abbrev main_call0_v58 : Ref sig .tc := ⟨.hbm, 82, rfl⟩
abbrev main_call0_v59 : Ref sig .tc := ⟨.hbm, 83, rfl⟩
abbrev main_call0_c_18 : Ref sig .tc := ⟨.hbm, 84, rfl⟩
abbrev main_call0_v60 : Ref sig .tc := ⟨.hbm, 85, rfl⟩
abbrev main_call0_v61 : Ref sig .tc := ⟨.hbm, 86, rfl⟩
abbrev main_call0_v62 : Ref sig .tc := ⟨.hbm, 87, rfl⟩
abbrev main_call0_v63 : Ref sig .tc := ⟨.hbm, 88, rfl⟩
abbrev main_call0_v64 : Ref sig .tc := ⟨.hbm, 89, rfl⟩
abbrev main_call0_v65 : Ref sig .tc := ⟨.hbm, 90, rfl⟩
abbrev main_call0_v66 : Ref sig .tc := ⟨.hbm, 91, rfl⟩
abbrev main_call0_cst_19 : Ref sig .tc := ⟨.hbm, 92, rfl⟩
abbrev main_call0_call1_v0 : Ref sig .tc := ⟨.hbm, 93, rfl⟩
abbrev main_call0_v67 : Ref sig .tc := ⟨.hbm, 94, rfl⟩
abbrev main_call0_v68 : Ref sig .tc := ⟨.hbm, 95, rfl⟩
abbrev main_call0_v69 : Ref sig .tc := ⟨.hbm, 96, rfl⟩
abbrev main_call0_v70 : Ref sig .tc := ⟨.hbm, 97, rfl⟩
abbrev main_call0_c_20 : Ref sig .tc := ⟨.hbm, 98, rfl⟩
abbrev main_call0_v71 : Ref sig .tc := ⟨.hbm, 99, rfl⟩
abbrev main_call0_v72 : Ref sig .tc := ⟨.hbm, 100, rfl⟩
abbrev main_call0_c_21 : Ref sig .tc := ⟨.hbm, 101, rfl⟩
abbrev main_call0_v73 : Ref sig .tc := ⟨.hbm, 102, rfl⟩
abbrev main_call0_v74 : Ref sig .tc := ⟨.hbm, 103, rfl⟩
abbrev main_call0_v75 : Ref sig .tc := ⟨.hbm, 104, rfl⟩
abbrev main_call0_c_22 : Ref sig .tc := ⟨.hbm, 105, rfl⟩
abbrev main_call0_v76 : Ref sig .tc := ⟨.hbm, 106, rfl⟩
abbrev main_call0_v77 : Ref sig .tc := ⟨.hbm, 107, rfl⟩
abbrev main_call0_c_23 : Ref sig .tc := ⟨.hbm, 108, rfl⟩
abbrev main_call0_v78 : Ref sig .tc := ⟨.hbm, 109, rfl⟩
abbrev main_call0_v79 : Ref sig .tc := ⟨.hbm, 110, rfl⟩
abbrev main_call0_v80 : Ref sig .tc := ⟨.hbm, 111, rfl⟩
abbrev main_call0_v81 : Ref sig .tc := ⟨.hbm, 112, rfl⟩
abbrev main_call0_v82 : Ref sig .tc := ⟨.hbm, 113, rfl⟩
abbrev main_call0_v83 : Ref sig .tc := ⟨.hbm, 114, rfl⟩
abbrev main_call0_v84 : Ref sig .tc := ⟨.hbm, 115, rfl⟩
abbrev main_call0_cst_24 : Ref sig .tc := ⟨.hbm, 116, rfl⟩
abbrev main_call0_call2_v0 : Ref sig .tc := ⟨.hbm, 117, rfl⟩
abbrev main_call0_v85 : Ref sig .tc := ⟨.hbm, 118, rfl⟩
abbrev main_call0_v86 : Ref sig .tc := ⟨.hbm, 119, rfl⟩
abbrev main_call0_v87 : Ref sig .tc := ⟨.hbm, 120, rfl⟩
abbrev main_call0_v88 : Ref sig .tc := ⟨.hbm, 121, rfl⟩
abbrev main_call0_c_25 : Ref sig .tc := ⟨.hbm, 122, rfl⟩
abbrev main_call0_v89 : Ref sig .tc := ⟨.hbm, 123, rfl⟩
abbrev main_call0_v90 : Ref sig .tc := ⟨.hbm, 124, rfl⟩
abbrev main_call0_c_26 : Ref sig .tc := ⟨.hbm, 125, rfl⟩
abbrev main_call0_v91 : Ref sig .tc := ⟨.hbm, 126, rfl⟩
abbrev main_call0_v92 : Ref sig .tc := ⟨.hbm, 127, rfl⟩
abbrev main_call0_v93 : Ref sig .tc := ⟨.hbm, 128, rfl⟩
abbrev main_call0_c_27 : Ref sig .tc := ⟨.hbm, 129, rfl⟩
abbrev main_call0_v94 : Ref sig .tc := ⟨.hbm, 130, rfl⟩
abbrev main_call0_v95 : Ref sig .tc := ⟨.hbm, 131, rfl⟩
abbrev main_call0_c_28 : Ref sig .tc := ⟨.hbm, 132, rfl⟩
abbrev main_call0_v96 : Ref sig .tc := ⟨.hbm, 133, rfl⟩
abbrev main_call0_v97 : Ref sig .tc := ⟨.hbm, 134, rfl⟩
abbrev main_call0_v98 : Ref sig .tc := ⟨.hbm, 135, rfl⟩
abbrev main_call0_v99 : Ref sig .tc := ⟨.hbm, 136, rfl⟩
abbrev main_call0_v100 : Ref sig .tc := ⟨.hbm, 137, rfl⟩
abbrev main_call0_v101 : Ref sig .tc := ⟨.hbm, 138, rfl⟩
abbrev main_call0_v102 : Ref sig .tc := ⟨.hbm, 139, rfl⟩
abbrev main_call0_cst_29 : Ref sig .tc := ⟨.hbm, 140, rfl⟩
abbrev main_call0_call3_v0 : Ref sig .tc := ⟨.hbm, 141, rfl⟩
abbrev main_call0_v103 : Ref sig .tc := ⟨.hbm, 142, rfl⟩
abbrev main_call0_v104 : Ref sig .tc := ⟨.hbm, 143, rfl⟩
abbrev main_call0_v105 : Ref sig .tc := ⟨.hbm, 144, rfl⟩
abbrev main_call0_v106 : Ref sig .tc := ⟨.hbm, 145, rfl⟩
abbrev main_call0_v107 : Ref sig .tc := ⟨.hbm, 146, rfl⟩
abbrev main_v0 : Ref sig .tc := ⟨.hbm, 147, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  bcast_S16777216_S16777216x1_0 : S16777216.BroadcastsInDim S16777216x1 (![0] : Fin 1 → Fin S16777216x1.rank)
  concatenates_S16777216x1_S16777216x1_S16777216x2_d1 : Shape.Concatenates [S16777216x1, S16777216x1] S16777216x2 1
  gather_S2048x2048_S16777216x2_S16777216_n_01_n_n_01_1_11_wf : GatherDims.WF S2048x2048 S16777216x2 S16777216 [] [0, 1] [] [0, 1] [] 1 ![1, 1]

variable [Facts₀]

def gather_S2048x2048_S16777216x2_S16777216_n_01_n_n_01_1_11 : GatherDims S2048x2048 S16777216x2 S16777216 where
  offsetDims := []
  collapsedSliceDims := [0, 1]
  operandBatchingDims := []
  startIndicesBatchingDims := []
  startIndexMap := [0, 1]
  indexVectorDim := 1
  sliceSizes := ![1, 1]
  wf := gather_S2048x2048_S16777216x2_S16777216_n_01_n_n_01_1_11_wf

class Facts : Prop extends Facts₀ where

variable [Facts]
-- ==== Proof.Bilinear.lean ====
/-
  Bilinear interpolation of a 2048 × 2048 table at a point (x, t), on the extended reals, written in the two
  arrangements the two programs compute it in.

  A coordinate x has a lower tap `lo x` (its floor, read as a signed 32-bit word) and an upper tap `hi x = lo x + 1`
  (the word's successor, wrapping), with weights `co x = 1 - (x - ⌊x⌋)` on the lower and `fr x = x - ⌊x⌋` on the upper.
  A tap outside `[0, 2048)` contributes nothing.

  * `interp`: the four-tap form. Each of the four (row tap, column tap) pairs contributes the product of its two
    weights times the table's entry there (`entry`: zero as soon as one of the two taps is outside the table), and the
    four are added from the left.
  * `byProducts`: the product form. The row weights are spread over all 2048 rows (`taps x r`: the weight of row `r`,
    zero on every row that is no tap), the table is contracted with them along the rows, the result is multiplied
    column by column with the column weights spread the same way, and the columns are added up.

  That the two agree on real arguments is the distributive law, in `BilinearLaw.lean`.
-/
import Idealize.ShloMosaic.PureOps.Ideal
import Idealize.ShloMosaic.Lib.ValueIdx

noncomputable section

open scoped BigOperators

namespace Cert.Bilinear

open Idealize.ShloMosaic Idealize.ShloMosaic.ValueIdx

/-- A 2048 × 2048 table of extended reals. -/
abbrev Table : Type := (⟨2, ![2048, 2048]⟩ : Shape).Idx → EReal

/-- The floor of a coordinate (the infinities fixed). -/
def flr (x : EReal) : EReal := Ideal.liftRound Int.floor x
/-- The lower tap: the floor as a signed 32-bit word. -/
def lo (x : EReal) : BitVec 32 := Ideal.fptosi 32 (flr x)
/-- The upper tap: the next word. -/
def hi (x : EReal) : BitVec 32 := lo x + 1#32
/-- The upper tap's weight: the fractional part. -/
def fr (x : EReal) : EReal := x - flr x
/-- The lower tap's weight: one minus the fractional part. -/
def co (x : EReal) : EReal := Ideal.ofBits .f32 0x3F800000#32 - fr x

/-- The table's entry at a pair of taps; zero when either lies outside `[0, 2048)`. -/
def entry (W : Table) (i j : BitVec 32) : EReal :=
  if h : i.toNat < 2048 ∧ j.toNat < 2048 then W (ix2 ⟨i.toNat, h.1⟩ ⟨j.toNat, h.2⟩) else 0

/-- The four-tap form: the four weighted entries, added from the left. -/
def interp (W : Table) (x t : EReal) : EReal :=
  (((co x * co t) * entry W (lo x) (lo t) + (co x * fr t) * entry W (lo x) (hi t))
      + (fr x * co t) * entry W (hi x) (lo t))
    + (fr x * fr t) * entry W (hi x) (hi t)

/-- The weight `a` placed on position `r` when `r`, as a 32-bit word, is the tap `i`; zero elsewhere. -/
def hot (i : BitVec 32) (a : EReal) (r : Fin 2048) : EReal := if BitVec.ofNat 32 r.val = i then a else 0

/-- A coordinate's two weights spread over the 2048 positions of an axis. -/
def taps (x : EReal) (r : Fin 2048) : EReal := hot (lo x) (co x) r + hot (hi x) (fr x) r

/-- The product form: contract the table with the row weights, multiply by the column weights, add the columns. -/
def byProducts (W : Table) (x t : EReal) : EReal :=
  ∑ c : Fin 2048, (∑ r : Fin 2048, taps x r * W (ix2 r c)) * taps t c

end Cert.Bilinear

end
-- ==== Proof.LibKeepdims.lean ====
/-
  Two layout operations read at an index, for a reduction that keeps its axis as a unit column:
  a vector [a] cast to a column [a, 1], and a column [a, 1] broadcast along the rows of [a, b].
  Together: (broadcast (cast v)) (p, c) = v p — every entry of row p is the row's reduced value.
-/
import Idealize.ShloMosaic.Lib.Pipeline.Value
import Idealize.ShloMosaic.Lib.ValueIdx
import Idealize.ShloMosaic.Lib.ValueLayout

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector's entry `p` spread along row `p`: the cast to a column followed by the broadcast along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.LibKeepdims

end
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.KernelBlock.lean ====
/-
  The kernel's stored payload read at one row of the 512 × 1 block.

  The payload is a lane sum, over the 2048 columns, of a product of two 512 × 2048 arrays: the table contracted along its rows
  with the row coordinate's two tap weights spread over the 2048 rows, and the column coordinate's two tap weights spread over the
  2048 columns. Each spread weight is a select on "this position is the tap": the position is the iota along the axis, the tap
  and its weight sit in a 512 × 1 column that is broadcast along the row. Read at row `p` the payload is therefore the product
  form of the bilinear interpolation (`Bilinear.byProducts`) of the table at the row's two coordinates.
-/
import proofs.«104155_j71270687310572_2_alg».proof.Proof.Gen.KernelIdeal.Skeleton
import proofs.«104155_j71270687310572_2_alg».proof.Proof.Bilinear
import proofs.«104155_j71270687310572_2_alg».proof.Proof.LibKeepdims
import proofs.«104155_j71270687310572_2_alg».proof.Proof.LibHostRead
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-! ## Words: the comparison bit and the select on it -/

/-- The equality comparison's bit is set exactly when the two words are equal. -/
theorem cmpi_eq_one_iff (a b : BitVec 32) : IntOp.cmpi .eq a b = 1 ↔ a = b := by
  show BitVec.ofBool (a == b) = 1 ↔ a = b
  by_cases h : a = b
  · subst h
    rw [beq_self_eq_true]
    exact ⟨fun _ => rfl, fun _ => rfl⟩
  · rw [beq_eq_false_iff_ne.2 h]
    exact ⟨fun h' => absurd h' (by decide), fun h' => absurd h' h⟩

/-- A select on "position `r` is the tap `i`" between a weight and the float zero is the weight placed on the tap. -/
theorem select_eq_hot (r : Fin 2048) (i : BitVec 32) (a : EReal) :
    Scalar.select (IntOp.cmpi .eq (BitVec.ofNat 32 r.val) i) a (Ideal.ofBits .f32 0x00000000#32) = Bilinear.hot i a r := by
  unfold Scalar.select Bilinear.hot
  rw [Ideal.ofBits_zero_f32]
  by_cases h : BitVec.ofNat 32 r.val = i
  · rw [if_pos ((cmpi_eq_one_iff _ _).2 h), if_pos h]
  · rw [if_neg (fun h' => h ((cmpi_eq_one_iff _ _).1 h')), if_neg h]

/-! ## A spread weight at a position -/

/-- The select on "the iota along the row equals the tap column broadcast along the row", between the weight column broadcast
    along the row and the zero splat: at `(p, r)` it is row `p`'s weight placed on row `p`'s tap. -/
theorem hotRow_apply (t : IVec S512x1 32) (w : FVec Ideal S512x1 .f32) (hi : S512x2048.Iotas .tc 32 [1])
    (hb : S512x1.Broadcasts S512x2048) (p : Fin 512) (r : Fin 2048) :
    select (cmpi .eq (iota .tc S512x2048 32 [1] hi) (broadcastTo S512x2048 t hb)) (broadcastTo S512x2048 w hb)
        (broadcast S512x2048 (FloatOps.ofBits (F := Ideal) .f32 0x00000000#32)) (ix2 p r)
      = Bilinear.hot (t (ix2 p (0 : Fin 1))) (w (ix2 p (0 : Fin 1))) r := by
  show Scalar.select (IntOp.cmpi .eq (iota .tc S512x2048 32 [1] hi (ix2 p r)) (broadcastTo S512x2048 t hb (ix2 p r)))
      (broadcastTo S512x2048 w hb (ix2 p r)) (Ideal.ofBits .f32 0x00000000#32) = _
  rw [iota_single_apply, LibKeepdims.broadcastTo_a1_ab_apply, LibKeepdims.broadcastTo_a1_ab_apply]
  exact select_eq_hot r _ _

/-! ## The lane sum and the matrix product -/

/-- A lane sum over the 2048 columns of a 512 × 2048 array, read at row `p`: the sum of the row's entries. -/
theorem laneSum_apply (src : FVec Ideal S512x2048 .f32) (h : S512x2048.Reduces [1] S512) (hφ : FKind.Formats .f32)
    (hacc : (0x00000000#32 : BitVec 32) = FKind.add.neutral .f32 hφ) (p : Fin 512) :
    multiReduction (F := Ideal) .add [1] S512 src 0x00000000#32 h hφ hacc (ix1 p) = ∑ c : Fin 2048, src (ix2 p c) := by
  refine (Ideal.multiReduction_add_single src 0x00000000#32 h hφ hacc (ix1 p)).trans ?_
  refine Finset.sum_congr rfl fun c _ => congrArg src ?_
  funext a
  refine Fin.ext ?_
  match a with
  | ⟨0, _⟩ => rfl
  | ⟨1, _⟩ => rfl

/-- The kernel's dot is a plain product of a 512 × 2048 by a 2048 × 2048 matrix: it contracts the left operand's columns with
    the right operand's rows. -/
theorem plainDot : LibHostRead.PlainDot dot_S512x2048_S2048x2048_S512x2048_1_0_0_1_n_n where
  hr := rfl
  hs := rfl
  hl0 := fun i q => by
    unfold DotDims.lhsIdx
    rw [dif_neg (show ¬(0 : Fin S512x2048.rank) ∈ dot_S512x2048_S2048x2048_S512x2048_1_0_0_1_n_n.lhsBatch by decide),
      dif_pos (show (0 : Fin S512x2048.rank) ∈ dot_S512x2048_S2048x2048_S512x2048_1_0_0_1_n_n.lhsNonContracting by decide)]
    rfl
  hl1 := fun i q => dot_S512x2048_S2048x2048_S512x2048_1_0_0_1_n_n.lhsIdx_val_of_single rfl i q
  hr0 := fun i q => dot_S512x2048_S2048x2048_S512x2048_1_0_0_1_n_n.rhsIdx_val_of_single rfl i q
  hr1 := fun i q => by
    unfold DotDims.rhsIdx
    rw [dif_neg (show ¬(1 : Fin S2048x2048.rank) ∈ dot_S512x2048_S2048x2048_S512x2048_1_0_0_1_n_n.rhsBatch by decide),
      dif_pos (show (1 : Fin S2048x2048.rank) ∈ dot_S512x2048_S2048x2048_S512x2048_1_0_0_1_n_n.rhsNonContracting by decide)]
    rfl

/-! ## The payloads at an index -/

/-- The matrix product's payload at `(p, c)`: the table's column `c` contracted with the row coordinate's spread weights. -/
theorem pay6_apply (x0 : Vec Ideal S512x1 .f32) (x2 : Vec Ideal S2048x2048 .bf16) (p : Fin 512) (c : Fin 2048) :
    k0_pay6 (F := Ideal) x0 x2 (ix2 p c) = ∑ r : Fin 2048, Bilinear.taps (x0 (ix2 p (0 : Fin 1))) r * x2 (ix2 r c) := by
  unfold k0_pay6
  simp only [shapeCast_self]
  refine (LibHostRead.matmul_plain_zero_apply (φ₁ := .bf16) (φ₂ := .bf16) _ plainDot _ _ p c).trans ?_
  refine Finset.sum_congr rfl fun r _ => congrArg (· * x2 (ix2 r c)) ?_
  show (select _ _ _ (ix2 p r) : EReal) + select _ _ _ (ix2 p r) = _
  rw [hotRow_apply, hotRow_apply]
  rfl

/-- The lower column tap's payload at `(p, c)`: the lower weight placed on the lower tap. -/
theorem pay7_apply (x1 : Vec Ideal S512x1 .f32) (p : Fin 512) (c : Fin 2048) :
    k0_pay7 (F := Ideal) x1 (ix2 p c)
      = Bilinear.hot (Bilinear.lo (x1 (ix2 p (0 : Fin 1)))) (Bilinear.co (x1 (ix2 p (0 : Fin 1)))) c := by
  unfold k0_pay7 k0_pay5 k0_pay4 k0_pay3 k0_pay2
  simp only [shapeCast_self]
  refine (hotRow_apply _ _ _ _ p c).trans ?_
  rfl

/-- The upper column tap's select at `(p, c)`, as the stored payload forms it from the comparison payload and the fraction
    payload: the upper weight placed on the upper tap. -/
theorem upper_apply (x1 : Vec Ideal S512x1 .f32) (h : S512x1.ShapeCasts S512x1) (hb : S512x1.Broadcasts S512x2048)
    (p : Fin 512) (c : Fin 2048) :
    select (k0_pay8 x1) (broadcastTo S512x2048 (shapeCast S512x1 (k0_pay4 (F := Ideal) x1) h) hb)
        (broadcast S512x2048 (FloatOps.ofBits (F := Ideal) .f32 0x00000000#32)) (ix2 p c)
      = Bilinear.hot (Bilinear.hi (x1 (ix2 p (0 : Fin 1)))) (Bilinear.fr (x1 (ix2 p (0 : Fin 1)))) c := by
  unfold k0_pay8 k0_pay5 k0_pay4 k0_pay3 k0_pay2
  simp only [shapeCast_self]
  refine (hotRow_apply _ _ _ _ p c).trans ?_
  rfl

/-- THE STORED PAYLOAD AT ROW `p`: the product form of the bilinear interpolation of the table at the row's coordinates. -/
theorem pay_apply (x0 x1 : Vec Ideal S512x1 .f32) (x2 : Vec Ideal S2048x2048 .bf16) (p : Fin 512) :
    k0_pay1 (F := Ideal) (k0_pay4 x1) (k0_pay6 x0 x2) (k0_pay7 x1) (k0_pay8 x1) (ix2 p (0 : Fin 1))
      = Cert.Bilinear.byProducts x2 (x0 (ix2 p (0 : Fin 1))) (x1 (ix2 p (0 : Fin 1))) := by
  unfold k0_pay1
  refine (LibKeepdims.shapeCast_a_a1_apply _ _ p 0).trans ?_
  refine (laneSum_apply _ _ _ _ p).trans ?_
  unfold Bilinear.byProducts
  refine Finset.sum_congr rfl fun c _ => ?_
  refine (congrArg₂ (· * ·) (pay6_apply x0 x2 p c)
    (congrArg₂ (· + ·) (pay7_apply x1 p c) (upper_apply x1 _ _ p c))).trans ?_
  rfl

end Cert.KernelIdeal.Block

end
-- ==== Proof.LibColumn.lean ====
/-
  A column [a, 1] cast to a vector [a], read at an index: entry i of the vector is entry (i, 0) of the column
  (both are position i of the row-major order).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a, 1]` column cast to `[a]` reads, at `i`, the column's entry `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibColumn

end
-- ==== Proof.KernelArray.lean ====
/-
  The kernel's result array. At grid point `t` the body stores, at row `p` of its 512 × 1 block, the product form of the
  interpolation (`Bilinear.byProducts`) of the table and the coordinates at row `p` of the two coordinate blocks. The
  coordinate blocks and the result block sit at the same rows `512 t … 512 t + 511` of their columns, and the table's
  block is the whole table, so what point `t` writes back is block `t` of ONE function of the three arrays as the
  launch finds them; the 32768 blocks tile the column, so the column ends holding that function. The host lines
  around the launch only re-lay arrays: the coordinate vectors become columns, the table changes float format (the
  identity on extended reals), and the result column becomes a vector again.
-/
import proofs.«104155_j71270687310572_2_alg».proof.Proof.Gen.KernelIdeal.Frame
import proofs.«104155_j71270687310572_2_alg».proof.Proof.KernelBlock
import proofs.«104155_j71270687310572_2_alg».proof.Proof.Bilinear
import proofs.«104155_j71270687310572_2_alg».proof.Proof.LibKeepdims
import proofs.«104155_j71270687310572_2_alg».proof.Proof.LibColumn
import Idealize.ShloMosaic.Lib.Pipeline.Value
import Idealize.ShloMosaic.Lib.StableHlo.Run

noncomputable section

namespace Cert.KernelIdeal.Array

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The stored payload at any index of the 512 × 1 block: the product form at that row. -/
theorem pay_at (x0 x1 : Vec Ideal S512x1 .f32) (x2 : Vec Ideal S2048x2048 .bf16) (j : S512x1.Idx) :
    k0_pay1 (F := Ideal) (k0_pay4 x1) (k0_pay6 x0 x2) (k0_pay7 x1) (k0_pay8 x1) j = Cert.Bilinear.byProducts x2 (x0 j) (x1 j) := by
  obtain ⟨p, z, rfl⟩ : ∃ (p : Fin 512) (z : Fin 1), j = ix2 p z := ⟨j 0, j 1, eq_ix2 j⟩
  obtain rfl : z = 0 := Subsingleton.elim _ _
  exact Cert.KernelIdeal.Block.pay_apply x0 x1 x2 p

/-- The result column as one function of the coordinate columns and the table. -/
def G3 (X T : S16777216x1.Idx → EReal) (W : S2048x2048.Idx → EReal) : S16777216x1.Idx → EReal :=
  fun i => Cert.Bilinear.byProducts W (X i) (T i)

/-- The printed index maps over the grid: the coordinate windows and the result window are at block row `t`, column 0;
    the table's window is always at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `j` of the first coordinate window's block at point `t` is the column's entry where the result block's row `j` sits. -/
theorem blk0_read (c : Dev nD) (t : Fin cfg0.N) (j : S512x1.Idx) :
    iblk m c 0 t j = V m c main_v0 (((cfg0.win 3).blk t).view.emb j) := by
  obtain ⟨e00, e01, e10, e11, e20, e21, e30, e31⟩ := idx_facts t
  show V m c main_v0 (((cfg0.win 0).blk t).view.emb j) = V m c main_v0 (((cfg0.win 3).blk t).view.emb j)
  refine congrArg (V m c main_v0) ?_
  funext a; apply Fin.ext
  match a with
  | ⟨0, _⟩ => show win0_0.index t (0 : Fin 2) * 512 + 1 * (j 0).val = win0_3.index t (0 : Fin 2) * 512 + 1 * (j 0).val; omega
  | ⟨1, _⟩ => show win0_0.index t (1 : Fin 2) * 1 + 1 * (j 1).val = win0_3.index t (1 : Fin 2) * 1 + 1 * (j 1).val; omega

/-- The same for the second coordinate window. -/
theorem blk1_read (c : Dev nD) (t : Fin cfg0.N) (j : S512x1.Idx) :
    iblk m c 1 t j = V m c main_v1 (((cfg0.win 3).blk t).view.emb j) := by
  obtain ⟨e00, e01, e10, e11, e20, e21, e30, e31⟩ := idx_facts t
  show V m c main_v1 (((cfg0.win 1).blk t).view.emb j) = V m c main_v1 (((cfg0.win 3).blk t).view.emb j)
  refine congrArg (V m c main_v1) ?_
  funext a; apply Fin.ext
  match a with
  | ⟨0, _⟩ => show win0_1.index t (0 : Fin 2) * 512 + 1 * (j 0).val = win0_3.index t (0 : Fin 2) * 512 + 1 * (j 0).val; omega
  | ⟨1, _⟩ => show win0_1.index t (1 : Fin 2) * 1 + 1 * (j 1).val = win0_3.index t (1 : Fin 2) * 1 + 1 * (j 1).val; omega

/-- The table's window is the whole table at every point. -/
theorem blk2_read (c : Dev nD) (t : Fin cfg0.N) : iblk m c 2 t = V m c main_v2 := by
  obtain ⟨e00, e01, e10, e11, e20, e21, e30, e31⟩ := idx_facts t
  funext y
  show V m c main_v2 (((cfg0.win 2).blk t).view.emb y) = V m c main_v2 y
  refine congrArg (V m c main_v2) ?_
  funext a; apply Fin.ext
  match a with
  | ⟨0, _⟩ => show win0_2.index t (0 : Fin 2) * 2048 + 1 * (y 0).val = (y 0).val; omega
  | ⟨1, _⟩ => show win0_2.index t (1 : Fin 2) * 2048 + 1 * (y 1).val = (y 1).val; omega

/-- WHAT POINT `t` WRITES BACK is block `t` of `G3` of the arrays as the launch finds them. -/
theorem flushed3_eq (c : Dev nD) (t : Fin cfg0.N) :
    (dats m 0 c).flushed 3 t
      = ((cfg0.win 3).blk t).view.read (Elt Ideal) (G3 (V m c main_v0) (V m c main_v1) (V m c main_v2)) := by
  show (cfg0.win 3).cut (grid0.coords t) ((dats m 0 c).after 3 t) = _
  rw [after0_3]
  unfold out0_3
  rw [View.canon_unit_zero hz]
  simp only [View.ld_unit_zero (S := S512x1) hz, View.ld_unit_zero (S := S2048x2048) hz]
  funext j
  refine (pay_at (iblk m c 0 t) (iblk m c 1 t) (iblk m c 2 t) j).trans ?_
  rw [blk0_read m c t j, blk1_read m c t j, blk2_read m c t]
  rfl

/-- An index of the column is in point `t`'s block iff each coordinate is in the block's range on its axis. -/
theorem mem_blk3 (t : Fin cfg0.N) (i : S16777216x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v3).slice (win0_3.rect t)).set ↔ _
  rw [View.set_slice_whole, Rect.mem_set_unit]
  exact Iff.rfl

/-- Every row of the column is in some point's block: row `r` in that of point `r / 512`. -/
theorem cover3 (i : S16777216x1.Idx) : ∃ t : Fin cfg0.N, (cfg0.win 3).flush t = true ∧ i ∈ ((cfg0.win 3).blk t).view.set := by
  have hi0 : (i 0).val < 16777216 := (i 0).isLt
  have hi1 : (i 1).val < 1 := (i 1).isLt
  have hN : grid0.N = 32768 := N_0
  let t : Fin cfg0.N := ⟨(i 0).val / 512, by show (i 0).val / 512 < grid0.N; omega⟩
  obtain ⟨e00, e01, e10, e11, e20, e21, e30, e31⟩ := idx_facts t
  have ht : t.val = (i 0).val / 512 := rfl
  refine ⟨t, flush0_3 t, ?_⟩
  rw [mem_blk3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1 ≤ (i 1).val ∧ (i 1).val < win0_3.index t (1 : Fin 2) * 1 + 1; omega

/-- THE RESULT COLUMN after the launch is `G3` of the arrays as the launch finds them. -/
theorem final3 (c : Dev nD) : (dats m 0 c).arrAt 3 cfg0.N = G3 (V m c main_v0) (V m c main_v1) (V m c main_v2) :=
  (dats m 0 c).arrAt_eq_of_cover 3 _ (fun t _ => flushed3_eq m c t) cover3

/-! ## The host lines before the launch -/

/-- The first coordinate column is the first argument vector re-laid as a column. -/
theorem V_v0 (c : Dev nD) : (V m c main_v0 : S16777216x1.Idx → EReal)
    = shapeCast S16777216x1 (m ((c : Thread nD τ).loc main_arg0)) Facts₀.shapeCasts_S16777216_S16777216x1 := by
  show StableHlo.after hostOps0 (fun b => m (c, b)) (Proc.devRef .tc main_v0) = _
  after_results
  rfl

/-- The second coordinate column is the second argument vector re-laid as a column. -/
theorem V_v1 (c : Dev nD) : (V m c main_v1 : S16777216x1.Idx → EReal)
    = shapeCast S16777216x1 (m ((c : Thread nD τ).loc main_arg1)) Facts₀.shapeCasts_S16777216_S16777216x1 := by
  show StableHlo.after hostOps0 (fun b => m (c, b)) (Proc.devRef .tc main_v1) = _
  after_results
  rfl

/-- The table the launch reads is the third argument: the change of float format is the identity on extended reals. -/
theorem V_v2 (c : Dev nD) : (V m c main_v2 : S2048x2048.Idx → EReal) = m ((c : Thread nD τ).loc main_arg2) := by
  show StableHlo.after hostOps0 (fun b => m (c, b)) (Proc.devRef .tc main_v2) = _
  after_results
  rfl

/-! ## The host line after the launch -/

/-- The program's result is the result column re-laid as a vector. -/
theorem tail_v4 (c : Dev nD) :
    (Pipeline.afterTail₀ cfgs (dats m) 0 (V0 m) [hostOps1] c main_v4 : S16777216.Idx → EReal)
      = shapeCast S16777216 ((dats m 0 c).arrAt 3 cfg0.N) Facts₀.shapeCasts_S16777216x1_S16777216 := by
  unfold Pipeline.afterTail₀
  show StableHlo.after hostOps1 _ (Proc.devRef .tc main_v4) = _
  after_results
  rw [Pipeline.withArrays_arr spec0 launch0.win.arr_inj c _ _ 3]
  rfl

/-- The program's result, entry by entry: the product form of the interpolation of the table at the two coordinates. -/
theorem result_eq (c : Dev nD) :
    (Pipeline.afterTail₀ cfgs (dats m) 0 (V0 m) [hostOps1] c main_v4 : S16777216.Idx → EReal)
      = fun i => Cert.Bilinear.byProducts (m ((c : Thread nD τ).loc main_arg2))
          (m ((c : Thread nD τ).loc main_arg0) i) (m ((c : Thread nD τ).loc main_arg1) i) := by
  rw [tail_v4, final3]
  funext i
  obtain ⟨q, rfl⟩ : ∃ q : Fin 16777216, i = ix1 q := ⟨i 0, eq_ix1 i⟩
  rw [Cert.LibColumn.shapeCast_a1_a_apply]
  show Cert.Bilinear.byProducts (V m c main_v2) (V m c main_v0 (ix2 q 0)) (V m c main_v1 (ix2 q 0)) = _
  rw [V_v0, V_v1, V_v2, Cert.LibKeepdims.shapeCast_a_a1_apply, Cert.LibKeepdims.shapeCast_a_a1_apply]

/-- Every weakly fair execution of the idealized kernel program terminates with its result at the product form of the
    interpolation, entry by entry, and the arguments unchanged. -/
theorem run : θ_run defs (onTc (τ := τ) (main (F := Ideal))) ⟨m, fun _ => 0, ρ⟩ fun r => ∀ c : Dev nD,
      r.2.mem ((c.tc : Thread nD τ).loc main_v4)
          = (fun i => Cert.Bilinear.byProducts (m ((c.tc : Thread nD τ).loc main_arg2))
              (m ((c.tc : Thread nD τ).loc main_arg0) i) (m ((c.tc : Thread nD τ).loc main_arg1) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v4 (Pipeline.mem_restRefs_of main_v4 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.Array

end
-- ==== Proof.RefOps.lean ====
/- The reference program's host operations, in order: the interpolation routine's body with the select routine it
   calls four times written out at each call, every operation over the buffers of the one call the program makes;
   and, operation by operation, that its buffers are TensorCore references. 145 operations. -/
import proofs.«104155_j71270687310572_2_alg».proof.Proof.Gen.ReferenceIdeal
import Idealize.ShloMosaic.Lib.StableHlo.Run

noncomputable section

namespace Cert.ReferenceIdeal.RefValue

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- The program's operations, in order. -/
abbrev ops : List (HloOp τ sig (Elt F)) :=
  [ TRef.unary (.of main_arg0) main_call0.v0 Host.floor,
    TRef.binary (.of main_arg0) main_call0.v0 main_call0.v1 subf,
    TRef.nullary main_call0.cst (constant S_ .f32 0x3F800000#32),
    TRef.unary main_call0.cst main_call0.v2 (broadcastInDim S16777216 ![] bcast_S_S16777216),
    TRef.binary main_call0.v2 main_call0.v1 main_call0.v3 subf,
    TRef.unary main_call0.v0 main_call0.v4 (fptosi 32),
    TRef.nullary main_call0.c (constantI S_ 32 1#32),
    TRef.unary main_call0.c main_call0.v5 (broadcastInDim S16777216 ![] bcast_S_S16777216),
    TRef.binary main_call0.v4 main_call0.v5 main_call0.v6 addi,
    TRef.nullary main_call0.c_0 (constantI S_ 32 0#32),
    TRef.unary main_call0.c_0 main_call0.v7 (broadcastInDim S16777216 ![] bcast_S_S16777216),
    TRef.binary main_call0.v4 main_call0.v7 main_call0.v8 (cmpi .sge),
    TRef.nullary main_call0.c_1 (constantI S_ 32 2048#32),
    TRef.unary main_call0.c_1 main_call0.v9 (broadcastInDim S16777216 ![] bcast_S_S16777216),
    TRef.binary main_call0.v4 main_call0.v9 main_call0.v10 (cmpi .slt),
    TRef.binary main_call0.v8 main_call0.v10 main_call0.v11 andi,
    TRef.nullary main_call0.c_2 (constantI S_ 32 0#32),
    TRef.unary main_call0.c_2 main_call0.v12 (broadcastInDim S16777216 ![] bcast_S_S16777216),
    TRef.binary main_call0.v6 main_call0.v12 main_call0.v13 (cmpi .sge),
    TRef.nullary main_call0.c_3 (constantI S_ 32 2048#32),
    TRef.unary main_call0.c_3 main_call0.v14 (broadcastInDim S16777216 ![] bcast_S_S16777216),
    TRef.binary main_call0.v6 main_call0.v14 main_call0.v15 (cmpi .slt),
    TRef.binary main_call0.v13 main_call0.v15 main_call0.v16 andi,
    TRef.unary (.of main_arg1) main_call0.v17 Host.floor,
    TRef.binary (.of main_arg1) main_call0.v17 main_call0.v18 subf,
    TRef.nullary main_call0.cst_4 (constant S_ .f32 0x3F800000#32),
    TRef.unary main_call0.cst_4 main_call0.v19 (broadcastInDim S16777216 ![] bcast_S_S16777216),
    TRef.binary main_call0.v19 main_call0.v18 main_call0.v20 subf,
    TRef.unary main_call0.v17 main_call0.v21 (fptosi 32),
    TRef.nullary main_call0.c_5 (constantI S_ 32 1#32),
    TRef.unary main_call0.c_5 main_call0.v22 (broadcastInDim S16777216 ![] bcast_S_S16777216),
    TRef.binary main_call0.v21 main_call0.v22 main_call0.v23 addi,
    TRef.nullary main_call0.c_6 (constantI S_ 32 0#32),
    TRef.unary main_call0.c_6 main_call0.v24 (broadcastInDim S16777216 ![] bcast_S_S16777216),
    TRef.binary main_call0.v21 main_call0.v24 main_call0.v25 (cmpi .sge),
    TRef.nullary main_call0.c_7 (constantI S_ 32 2048#32),
    TRef.unary main_call0.c_7 main_call0.v26 (broadcastInDim S16777216 ![] bcast_S_S16777216),
    TRef.binary main_call0.v21 main_call0.v26 main_call0.v27 (cmpi .slt),
    TRef.binary main_call0.v25 main_call0.v27 main_call0.v28 andi,
    TRef.nullary main_call0.c_8 (constantI S_ 32 0#32),
    TRef.unary main_call0.c_8 main_call0.v29 (broadcastInDim S16777216 ![] bcast_S_S16777216),
    TRef.binary main_call0.v23 main_call0.v29 main_call0.v30 (cmpi .sge),
    TRef.nullary main_call0.c_9 (constantI S_ 32 2048#32),
    TRef.unary main_call0.c_9 main_call0.v31 (broadcastInDim S16777216 ![] bcast_S_S16777216),
    TRef.binary main_call0.v23 main_call0.v31 main_call0.v32 (cmpi .slt),
    TRef.binary main_call0.v30 main_call0.v32 main_call0.v33 andi,
    TRef.binary main_call0.v11 main_call0.v28 main_call0.v34 andi,
    TRef.nullary main_call0.c_10 (constantI S_ 32 0#32),
    TRef.unary main_call0.c_10 main_call0.v35 (broadcastInDim S16777216 ![] bcast_S_S16777216),
    TRef.binary main_call0.v4 main_call0.v35 main_call0.v36 (cmpi .slt),
    TRef.nullary main_call0.c_11 (constantI S_ 32 2048#32),
    TRef.unary main_call0.c_11 main_call0.v37 (broadcastInDim S16777216 ![] bcast_S_S16777216),
    TRef.binary main_call0.v4 main_call0.v37 main_call0.v38 addi,
    TRef.ternary main_call0.v36 main_call0.v38 main_call0.v4 main_call0.v39 select,
    TRef.nullary main_call0.c_12 (constantI S_ 32 0#32),
    TRef.unary main_call0.c_12 main_call0.v40 (broadcastInDim S16777216 ![] bcast_S_S16777216),
    TRef.binary main_call0.v21 main_call0.v40 main_call0.v41 (cmpi .slt),
    TRef.nullary main_call0.c_13 (constantI S_ 32 2048#32),
    TRef.unary main_call0.c_13 main_call0.v42 (broadcastInDim S16777216 ![] bcast_S_S16777216),
    TRef.binary main_call0.v21 main_call0.v42 main_call0.v43 addi,
    TRef.ternary main_call0.v41 main_call0.v43 main_call0.v21 main_call0.v44 select,
    TRef.unary main_call0.v39 main_call0.v45 (broadcastInDim S16777216x1 ![0] bcast_S16777216_S16777216x1_0),
    TRef.unary main_call0.v44 main_call0.v46 (broadcastInDim S16777216x1 ![0] bcast_S16777216_S16777216x1_0),
    TRef.binary main_call0.v45 main_call0.v46 main_call0.v47 (fun a b => concatenate S16777216x2 1 [⟨S16777216x1, a⟩, ⟨S16777216x1, b⟩] concatenates_S16777216x1_S16777216x1_S16777216x2_d1),
    TRef.binary (.of main_arg2) main_call0.v47 main_call0.v48 (fun x i => Host.gather gather_S2048x2048_S16777216x2_S16777216_n_01_n_n_01_1_11 x i),
    TRef.nullary main_call0.cst_14 (constant S_ .f32 0x00000000#32),
    TRef.unary main_call0.cst_14 main_call0.call0.v0 (broadcastInDim S16777216 ![] bcast_S_S16777216),
    TRef.ternary main_call0.v34 main_call0.v48 main_call0.call0.v0 main_call0.call0.v1 select,
    TRef.binary main_call0.v3 main_call0.v20 main_call0.v50 mulf,
    TRef.binary main_call0.v50 main_call0.call0.v1 main_call0.v51 mulf,
    TRef.binary main_call0.v11 main_call0.v33 main_call0.v52 andi,
    TRef.nullary main_call0.c_15 (constantI S_ 32 0#32),
    TRef.unary main_call0.c_15 main_call0.v53 (broadcastInDim S16777216 ![] bcast_S_S16777216),
    TRef.binary main_call0.v4 main_call0.v53 main_call0.v54 (cmpi .slt),
    TRef.nullary main_call0.c_16 (constantI S_ 32 2048#32),
    TRef.unary main_call0.c_16 main_call0.v55 (broadcastInDim S16777216 ![] bcast_S_S16777216),
    TRef.binary main_call0.v4 main_call0.v55 main_call0.v56 addi,
    TRef.ternary main_call0.v54 main_call0.v56 main_call0.v4 main_call0.v57 select,
    TRef.nullary main_call0.c_17 (constantI S_ 32 0#32),
    TRef.unary main_call0.c_17 main_call0.v58 (broadcastInDim S16777216 ![] bcast_S_S16777216),
    TRef.binary main_call0.v23 main_call0.v58 main_call0.v59 (cmpi .slt),
    TRef.nullary main_call0.c_18 (constantI S_ 32 2048#32),
    TRef.unary main_call0.c_18 main_call0.v60 (broadcastInDim S16777216 ![] bcast_S_S16777216),
    TRef.binary main_call0.v23 main_call0.v60 main_call0.v61 addi,
    TRef.ternary main_call0.v59 main_call0.v61 main_call0.v23 main_call0.v62 select,
    TRef.unary main_call0.v57 main_call0.v63 (broadcastInDim S16777216x1 ![0] bcast_S16777216_S16777216x1_0),
    TRef.unary main_call0.v62 main_call0.v64 (broadcastInDim S16777216x1 ![0] bcast_S16777216_S16777216x1_0),
    TRef.binary main_call0.v63 main_call0.v64 main_call0.v65 (fun a b => concatenate S16777216x2 1 [⟨S16777216x1, a⟩, ⟨S16777216x1, b⟩] concatenates_S16777216x1_S16777216x1_S16777216x2_d1),
    TRef.binary (.of main_arg2) main_call0.v65 main_call0.v66 (fun x i => Host.gather gather_S2048x2048_S16777216x2_S16777216_n_01_n_n_01_1_11 x i),
    TRef.nullary main_call0.cst_19 (constant S_ .f32 0x00000000#32),
    TRef.unary main_call0.cst_19 main_call0.call1.v0 (broadcastInDim S16777216 ![] bcast_S_S16777216),
    TRef.ternary main_call0.v52 main_call0.v66 main_call0.call1.v0 main_call0.call1.v1 select,
    TRef.binary main_call0.v3 main_call0.v18 main_call0.v68 mulf,
    TRef.binary main_call0.v68 main_call0.call1.v1 main_call0.v69 mulf,
    TRef.binary main_call0.v16 main_call0.v28 main_call0.v70 andi,
    TRef.nullary main_call0.c_20 (constantI S_ 32 0#32),
    TRef.unary main_call0.c_20 main_call0.v71 (broadcastInDim S16777216 ![] bcast_S_S16777216),
    TRef.binary main_call0.v6 main_call0.v71 main_call0.v72 (cmpi .slt),
    TRef.nullary main_call0.c_21 (constantI S_ 32 2048#32),
    TRef.unary main_call0.c_21 main_call0.v73 (broadcastInDim S16777216 ![] bcast_S_S16777216),
    TRef.binary main_call0.v6 main_call0.v73 main_call0.v74 addi,
    TRef.ternary main_call0.v72 main_call0.v74 main_call0.v6 main_call0.v75 select,
    TRef.nullary main_call0.c_22 (constantI S_ 32 0#32),
    TRef.unary main_call0.c_22 main_call0.v76 (broadcastInDim S16777216 ![] bcast_S_S16777216),
    TRef.binary main_call0.v21 main_call0.v76 main_call0.v77 (cmpi .slt),
    TRef.nullary main_call0.c_23 (constantI S_ 32 2048#32),
    TRef.unary main_call0.c_23 main_call0.v78 (broadcastInDim S16777216 ![] bcast_S_S16777216),
    TRef.binary main_call0.v21 main_call0.v78 main_call0.v79 addi,
    TRef.ternary main_call0.v77 main_call0.v79 main_call0.v21 main_call0.v80 select,
    TRef.unary main_call0.v75 main_call0.v81 (broadcastInDim S16777216x1 ![0] bcast_S16777216_S16777216x1_0),
    TRef.unary main_call0.v80 main_call0.v82 (broadcastInDim S16777216x1 ![0] bcast_S16777216_S16777216x1_0),
    TRef.binary main_call0.v81 main_call0.v82 main_call0.v83 (fun a b => concatenate S16777216x2 1 [⟨S16777216x1, a⟩, ⟨S16777216x1, b⟩] concatenates_S16777216x1_S16777216x1_S16777216x2_d1),
    TRef.binary (.of main_arg2) main_call0.v83 main_call0.v84 (fun x i => Host.gather gather_S2048x2048_S16777216x2_S16777216_n_01_n_n_01_1_11 x i),
    TRef.nullary main_call0.cst_24 (constant S_ .f32 0x00000000#32),
    TRef.unary main_call0.cst_24 main_call0.call2.v0 (broadcastInDim S16777216 ![] bcast_S_S16777216),
    TRef.ternary main_call0.v70 main_call0.v84 main_call0.call2.v0 main_call0.call2.v1 select,
    TRef.binary main_call0.v1 main_call0.v20 main_call0.v86 mulf,
    TRef.binary main_call0.v86 main_call0.call2.v1 main_call0.v87 mulf,
    TRef.binary main_call0.v16 main_call0.v33 main_call0.v88 andi,
    TRef.nullary main_call0.c_25 (constantI S_ 32 0#32),
    TRef.unary main_call0.c_25 main_call0.v89 (broadcastInDim S16777216 ![] bcast_S_S16777216),
    TRef.binary main_call0.v6 main_call0.v89 main_call0.v90 (cmpi .slt),
    TRef.nullary main_call0.c_26 (constantI S_ 32 2048#32),
    TRef.unary main_call0.c_26 main_call0.v91 (broadcastInDim S16777216 ![] bcast_S_S16777216),
    TRef.binary main_call0.v6 main_call0.v91 main_call0.v92 addi,
    TRef.ternary main_call0.v90 main_call0.v92 main_call0.v6 main_call0.v93 select,
    TRef.nullary main_call0.c_27 (constantI S_ 32 0#32),
    TRef.unary main_call0.c_27 main_call0.v94 (broadcastInDim S16777216 ![] bcast_S_S16777216),
    TRef.binary main_call0.v23 main_call0.v94 main_call0.v95 (cmpi .slt),
    TRef.nullary main_call0.c_28 (constantI S_ 32 2048#32),
    TRef.unary main_call0.c_28 main_call0.v96 (broadcastInDim S16777216 ![] bcast_S_S16777216),
    TRef.binary main_call0.v23 main_call0.v96 main_call0.v97 addi,
    TRef.ternary main_call0.v95 main_call0.v97 main_call0.v23 main_call0.v98 select,
    TRef.unary main_call0.v93 main_call0.v99 (broadcastInDim S16777216x1 ![0] bcast_S16777216_S16777216x1_0),
    TRef.unary main_call0.v98 main_call0.v100 (broadcastInDim S16777216x1 ![0] bcast_S16777216_S16777216x1_0),
    TRef.binary main_call0.v99 main_call0.v100 main_call0.v101 (fun a b => concatenate S16777216x2 1 [⟨S16777216x1, a⟩, ⟨S16777216x1, b⟩] concatenates_S16777216x1_S16777216x1_S16777216x2_d1),
    TRef.binary (.of main_arg2) main_call0.v101 main_call0.v102 (fun x i => Host.gather gather_S2048x2048_S16777216x2_S16777216_n_01_n_n_01_1_11 x i),
    TRef.nullary main_call0.cst_29 (constant S_ .f32 0x00000000#32),
    TRef.unary main_call0.cst_29 main_call0.call3.v0 (broadcastInDim S16777216 ![] bcast_S_S16777216),
    TRef.ternary main_call0.v88 main_call0.v102 main_call0.call3.v0 main_call0.call3.v1 select,
    TRef.binary main_call0.v1 main_call0.v18 main_call0.v104 mulf,
    TRef.binary main_call0.v104 main_call0.call3.v1 main_call0.v105 mulf,
    TRef.binary main_call0.v51 main_call0.v69 main_call0.v106 addf,
    TRef.binary main_call0.v106 main_call0.v87 main_call0.v107 addf,
    TRef.binary main_call0.v107 main_call0.v105 main_call0.v108 addf ]

/-- Each touches TensorCore references only. -/
theorem ops_sub : (ops : List (HloOp τ sig (Elt F))).Forall fun op => op.bufs ⊆ tcRefs τ sig :=
  ⟨unary_bufs_sub .., binary_bufs_sub .., nullary_bufs_sub .., unary_bufs_sub .., binary_bufs_sub .., unary_bufs_sub ..,
    nullary_bufs_sub .., unary_bufs_sub .., binary_bufs_sub .., nullary_bufs_sub .., unary_bufs_sub .., binary_bufs_sub ..,
    nullary_bufs_sub .., unary_bufs_sub .., binary_bufs_sub .., binary_bufs_sub .., nullary_bufs_sub .., unary_bufs_sub ..,
    binary_bufs_sub .., nullary_bufs_sub .., unary_bufs_sub .., binary_bufs_sub .., binary_bufs_sub .., unary_bufs_sub ..,
    binary_bufs_sub .., nullary_bufs_sub .., unary_bufs_sub .., binary_bufs_sub .., unary_bufs_sub .., nullary_bufs_sub ..,
    unary_bufs_sub .., binary_bufs_sub .., nullary_bufs_sub .., unary_bufs_sub .., binary_bufs_sub .., nullary_bufs_sub ..,
    unary_bufs_sub .., binary_bufs_sub .., binary_bufs_sub .., nullary_bufs_sub .., unary_bufs_sub .., binary_bufs_sub ..,
    nullary_bufs_sub .., unary_bufs_sub .., binary_bufs_sub .., binary_bufs_sub .., binary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., binary_bufs_sub .., binary_bufs_sub .., nullary_bufs_sub ..,
    unary_bufs_sub .., ternary_bufs_sub .., binary_bufs_sub .., binary_bufs_sub .., binary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., binary_bufs_sub .., binary_bufs_sub .., nullary_bufs_sub ..,
    unary_bufs_sub .., ternary_bufs_sub .., binary_bufs_sub .., binary_bufs_sub .., binary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., binary_bufs_sub .., binary_bufs_sub .., nullary_bufs_sub ..,
    unary_bufs_sub .., ternary_bufs_sub .., binary_bufs_sub .., binary_bufs_sub .., binary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., binary_bufs_sub .., binary_bufs_sub .., nullary_bufs_sub ..,
    unary_bufs_sub .., ternary_bufs_sub .., binary_bufs_sub .., binary_bufs_sub .., binary_bufs_sub .., binary_bufs_sub ..,
    binary_bufs_sub ..⟩

end Cert.ReferenceIdeal.RefValue

end
-- ==== Proof.RefTerm.lean ====
/-
  The reference's result as one term of its three arguments, built from the stages of the interpolation routine it
  calls: per coordinate the floor, the fractional part and its complement, the lower tap (the floor as a 32-bit
  word) and the upper tap (the next word); per tap the test that it lies in `[0, 2048)` and the index with a negative
  word moved up by 2048; per pair of taps the two indices laid side by side as a row of a two-column index table, the
  table's entry gathered there, and zero put in its place where either tap fails the test; and the four weighted entries
  added from the left.
-/
import proofs.«104155_j71270687310572_2_alg».proof.Proof.Gen.ReferenceIdeal

noncomputable section

namespace Cert.ReferenceIdeal.RefValue

open Cert.ReferenceIdeal Cert.ReferenceIdeal.Facts₀ Cert.ReferenceIdeal.Facts Idealize.ShloMosaic

variable {F : FTy → Type} [FloatOps F]

/-- A 32-bit word repeated at every query. -/
def word (k : BitVec 32) : IVec S16777216 32 := broadcastInDim S16777216 ![] bcast_S_S16777216 (constantI S_ 32 k)
/-- A float constant repeated at every query. -/
def splat (b : BitVec 32) : FVec F S16777216 .f32 := broadcastInDim S16777216 ![] bcast_S_S16777216 (constant S_ .f32 b)
/-- The coordinates' floors. -/
def flo (x : FVec F S16777216 .f32) : FVec F S16777216 .f32 := Host.floor x
/-- Their fractional parts: the upper taps' weights. -/
def frac (x : FVec F S16777216 .f32) : FVec F S16777216 .f32 := subf x (flo x)
/-- One minus the fractional parts: the lower taps' weights. -/
def comp (x : FVec F S16777216 .f32) : FVec F S16777216 .f32 := subf (splat 0x3F800000#32) (frac x)
/-- The lower taps: the floors as signed 32-bit words. -/
def low (x : FVec F S16777216 .f32) : IVec S16777216 32 := fptosi 32 (flo x)
/-- The upper taps: the next words. -/
def high (x : FVec F S16777216 .f32) : IVec S16777216 32 := addi (low x) (word 1#32)
/-- Which taps lie in `[0, 2048)`, as signed words. -/
def valid (i : IVec S16777216 32) : IVec S16777216 1 := andi (cmpi .sge i (word 0#32)) (cmpi .slt i (word 2048#32))
/-- The taps with every negative word moved up by 2048. -/
def wrap (i : IVec S16777216 32) : IVec S16777216 32 := select (cmpi .slt i (word 0#32)) (addi i (word 2048#32)) i
/-- A vector of words as a one-column table. -/
def column (i : IVec S16777216 32) : IVec S16777216x1 32 := broadcastInDim S16777216x1 ![0] bcast_S16777216_S16777216x1_0 i
/-- Two vectors of words side by side: row `q` is the pair `(i q, j q)`. -/
def pairs (i j : IVec S16777216 32) : IVec S16777216x2 32 :=
  concatenate S16777216x2 1 [⟨S16777216x1, column i⟩, ⟨S16777216x1, column j⟩] concatenates_S16777216x1_S16777216x1_S16777216x2_d1
/-- The table's entries at the pairs of taps, zero where either tap lies outside the table. -/
def tap (W : FVec F S2048x2048 .f32) (i j : IVec S16777216 32) : FVec F S16777216 .f32 :=
  select (andi (valid i) (valid j))
    (Host.gather gather_S2048x2048_S16777216x2_S16777216_n_01_n_n_01_1_11 W (pairs (wrap i) (wrap j)))
    (splat 0x00000000#32)

/-- The reference's result: the four weighted entries, added from the left. -/
def refTerm (W : FVec F S2048x2048 .f32) (x t : FVec F S16777216 .f32) : FVec F S16777216 .f32 :=
  addf (addf (addf (mulf (mulf (comp x) (comp t)) (tap W (low x) (low t)))
                   (mulf (mulf (comp x) (frac t)) (tap W (low x) (high t))))
             (mulf (mulf (frac x) (comp t)) (tap W (high x) (low t))))
       (mulf (mulf (frac x) (frac t)) (tap W (high x) (high t)))

end Cert.ReferenceIdeal.RefValue

end
-- ==== Proof.RefRun.lean ====
/-
  The reference program run: it is the straight line of its 145 host operations (the interpolation routine's body, the
  select routine written out at its four calls), so every weakly fair execution ends with each buffer at the
  operations' fold over the launch contents; the fold at the result buffer is the term `refTerm` of the three argument
  arrays, and no operation writes an argument.
-/
import proofs.«104155_j71270687310572_2_alg».proof.Proof.RefOps
import proofs.«104155_j71270687310572_2_alg».proof.Proof.RefTerm
import Idealize.ShloMosaic.Lib.StableHlo.Run
import Idealize.ShloMosaic.Lib.Pipeline.Regions

noncomputable section

namespace Cert.ReferenceIdeal.RefValue

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- The program is that straight line: with the routines' definitions unfolded at their calls both sides are one chain
    of host steps once sequencing is re-associated, which is a computation. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- Every weakly fair execution of the program terminates, and every final state has each buffer at the operations'
    fold over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-- The fold at the result buffer is the reference's term of the three argument arrays: unrolled, each operation's
    result is read at the buffer it writes and passed over at every other, which leaves the operations' functions
    composed in the order the stages of `refTerm` compose them — a computation. -/
theorem out_eq (V : Valuation τ sig (Elt F)) :
    after ops V (Proc.devRef .tc main_v0)
      = refTerm (V (Proc.devRef .tc main_arg2)) (V (Proc.devRef .tc main_arg0)) (V (Proc.devRef .tc main_arg1)) := by
  chain_rfl

set_option maxRecDepth 16384 in
set_option maxHeartbeats 4000000 in
/-- No operation writes the first argument. -/
theorem arg0_eq (V : Valuation τ sig (Elt F)) : after ops V (Proc.devRef .tc main_arg0) = V (Proc.devRef .tc main_arg0) := by
  after_results_simp
set_option maxRecDepth 16384 in
set_option maxHeartbeats 4000000 in
/-- No operation writes the second argument. -/
theorem arg1_eq (V : Valuation τ sig (Elt F)) : after ops V (Proc.devRef .tc main_arg1) = V (Proc.devRef .tc main_arg1) := by
  after_results_simp
set_option maxRecDepth 16384 in
set_option maxHeartbeats 4000000 in
/-- No operation writes the third argument. -/
theorem arg2_eq (V : Valuation τ sig (Elt F)) : after ops V (Proc.devRef .tc main_arg2) = V (Proc.devRef .tc main_arg2) := by
  after_results_simp

/-- Every weakly fair execution of the reference terminates with its result at `refTerm` of the arguments' launch
    contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0)
          = refTerm (m ((c.tc : Thread nD τ).loc main_arg2)) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v0).trans (out_eq _), (h c main_arg0).trans (arg0_eq _),
      (h c main_arg1).trans (arg1_eq _), (h c main_arg2).trans (arg2_eq _)⟩) (run_ops m ρ)

end Cert.ReferenceIdeal.RefValue

end
-- ==== Proof.RefRead.lean ====
/-
  The reference's term read at one query.

  Each stage of the interpolation routine is read at the index of query `q`: the pointwise stages are the scalar
  floor, weights and taps of the four-tap form; the test of a tap is "its unsigned value is below 2048"; a tap that
  passes it is not negative, so the move of negative words leaves it alone; two vectors of words side by side read
  the first in column 0 and the second in column 1; the gather of single table entries reads the entry whose row and
  column are the two words of the row, each read signed and clamped into `[0, 2047]`, and on taps that pass the
  test the clamp does nothing. So an entry gathered under the test is the table's entry at the two taps when both are
  inside the table and zero otherwise, and the reference's term at `q` is the four-tap form at the two coordinates.
-/
import proofs.«104155_j71270687310572_2_alg».proof.Proof.RefTerm
import proofs.«104155_j71270687310572_2_alg».proof.Proof.Bilinear
import proofs.«104155_j71270687310572_2_alg».proof.Proof.LibHostRead
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Idealize.ShloMosaic Idealize.ShloMosaic.ValueIdx

/-! ## 32-bit words: the range test, the move of negative words, the clamp -/

/-- A 32-bit word below 2048 reads the same signed as unsigned. -/
theorem toInt_of_lt (w : BitVec 32) (h : w.toNat < 2048) : w.toInt = (w.toNat : ℤ) := by
  rw [BitVec.toInt_eq_toNat_cond]
  split <;> omega

/-- A 32-bit word is at least zero and below 2048 as a signed number exactly when its unsigned value is below 2048. -/
theorem inRange_word (w : BitVec 32) :
    IntOp.andi (IntOp.cmpi .sge w 0#32) (IntOp.cmpi .slt w 2048#32) = if w.toNat < 2048 then 1#1 else 0#1 := by
  have h0 : (0#32 : BitVec 32).toInt = 0 := by decide
  have h1 : (2048#32 : BitVec 32).toInt = 2048 := by decide
  have hw := BitVec.toInt_eq_toNat_cond w
  have hlt := w.isLt
  unfold IntOp.andi IntOp.cmpi
  simp only [BitVec.sle, BitVec.slt, h0, h1]
  by_cases h : w.toNat < 2048
  · have a : (0 : ℤ) ≤ w.toInt := by rw [hw]; split <;> omega
    have b : w.toInt < 2048 := by rw [hw]; split <;> omega
    rw [if_pos h, decide_eq_true a, decide_eq_true b]
    decide
  · rw [if_neg h]
    by_cases a : (0 : ℤ) ≤ w.toInt
    · have b : ¬ w.toInt < 2048 := by
        rw [hw] at a ⊢; split at a <;> split <;> omega
      rw [decide_eq_true a, decide_eq_false b]
      decide
    · rw [decide_eq_false a]
      cases decide (w.toInt < 2048) <;> decide

/-- A word below 2048 is not negative, so the move of negative words leaves it alone. -/
theorem wrap_word (w : BitVec 32) (h : w.toNat < 2048) :
    Scalar.select (IntOp.cmpi .slt w 0#32) (IntOp.addi w 2048#32) w = w := by
  have h0 : (0#32 : BitVec 32).toInt = 0 := by decide
  have a : ¬ w.toInt < 0 := by rw [toInt_of_lt w h]; omega
  unfold IntOp.cmpi
  simp only [BitVec.slt, h0]
  rw [decide_eq_false a]
  exact select_zero _ _

/-- A word below 2048, read signed and clamped into `[0, 2047]`, is its unsigned value. -/
theorem clamp_of_lt (w : BitVec 32) (h : w.toNat < 2048) : min w.toInt.toNat 2047 = w.toNat := by
  rw [toInt_of_lt w h]
  simp only [Int.toNat_natCast]
  omega

/-! ## The pointwise stages at a query -/

/-- A repeated word reads the word at every query. -/
theorem word_apply (k : BitVec 32) (q : Fin 16777216) : word k (ix1 q) = k := rfl

/-- A repeated float constant reads the extended real its word encodes at every query. -/
theorem splat_apply (b : BitVec 32) (q : Fin 16777216) : splat (F := Ideal) b (ix1 q) = Ideal.ofBits .f32 b := rfl

/-- The floors at a query: the floor of the coordinate there. -/
theorem flo_apply (x : FVec Ideal S16777216 .f32) (q : Fin 16777216) :
    flo x (ix1 q) = Cert.Bilinear.flr (x (ix1 q)) := rfl

/-- The fractional parts at a query: the coordinate less its floor. -/
theorem frac_apply (x : FVec Ideal S16777216 .f32) (q : Fin 16777216) :
    frac x (ix1 q) = Cert.Bilinear.fr (x (ix1 q)) := rfl

/-- The complements at a query: one less the fractional part. -/
theorem comp_apply (x : FVec Ideal S16777216 .f32) (q : Fin 16777216) :
    comp x (ix1 q) = Cert.Bilinear.co (x (ix1 q)) := rfl

/-- The lower taps at a query: the floor of the coordinate as a signed 32-bit word. -/
theorem low_apply (x : FVec Ideal S16777216 .f32) (q : Fin 16777216) :
    low x (ix1 q) = Cert.Bilinear.lo (x (ix1 q)) := rfl

/-- The upper taps at a query: the next word. -/
theorem high_apply (x : FVec Ideal S16777216 .f32) (q : Fin 16777216) :
    high x (ix1 q) = Cert.Bilinear.hi (x (ix1 q)) := rfl

/-! ## The test and the move of negative words at a query -/

/-- The test at a query is the bit 1 exactly when the tap's unsigned value is below 2048. -/
theorem valid_apply (i : IVec S16777216 32) (q : Fin 16777216) :
    valid i (ix1 q) = if (i (ix1 q)).toNat < 2048 then 1#1 else 0#1 :=
  inRange_word (i (ix1 q))

/-- A tap that passes the test is left alone by the move of negative words. -/
theorem wrap_apply (i : IVec S16777216 32) (q : Fin 16777216) (h : (i (ix1 q)).toNat < 2048) :
    wrap i (ix1 q) = i (ix1 q) :=
  wrap_word (i (ix1 q)) h

/-! ## Two vectors of words side by side -/

/-- Row `q` of the two-column table has the first vector's word in column 0 … -/
theorem pairs_apply0 (i j : IVec S16777216 32) (q : Fin 16777216) : pairs i j (ix2 q 0) = i (ix1 q) := by
  unfold pairs
  refine (concatenate_pair_apply_left (t := S16777216x2) (s₁ := S16777216x1) (s₂ := S16777216x1) 1 (column i) (column j) _
    (ix2 q (0 : Fin 2)) rfl (ix2 q (0 : Fin 1)) (fun b => ?_)).trans ?_
  · match b with
    | ⟨0, _⟩ => rfl
    | ⟨1, _⟩ => rfl
  · exact Cert.LibHostRead.bid_a_a1_apply i _ q 0

/-- … and the second vector's word in column 1. -/
theorem pairs_apply1 (i j : IVec S16777216 32) (q : Fin 16777216) : pairs i j (ix2 q 1) = j (ix1 q) := by
  unfold pairs
  refine (concatenate_pair_apply_right (t := S16777216x2) (s₁ := S16777216x1) (s₂ := S16777216x1) 1 (column i) (column j) _
    (ix2 q (1 : Fin 2)) rfl rfl (ix2 q (0 : Fin 1)) (fun b hb => ?_) ?_).trans ?_
  · match b with
    | ⟨0, _⟩ => rfl
    | ⟨1, _⟩ => exact absurd rfl hb
  · rfl
  · exact Cert.LibHostRead.bid_a_a1_apply j _ q 0

/-! ## The gather of single table entries -/

local notation "gd" => gather_S2048x2048_S16777216x2_S16777216_n_01_n_n_01_1_11

/-- The gather of single entries of a 2048 × 2048 table at a two-column table of start indices, read at query `q`: the
    entry whose row and column are the two words of row `q`, each read signed and clamped into `[0, 2047]`. -/
theorem gather_pairs_apply {α : Type} (W : S2048x2048.Idx → α) (idx : IVec S16777216x2 32) (q : Fin 16777216) :
    Host.gather gd W idx (ix1 q)
      = W (ix2 ⟨min (idx (ix2 q 0)).toInt.toNat 2047, by omega⟩ ⟨min (idx (ix2 q 1)).toInt.toNat 2047, by omega⟩) := by
  unfold Host.gather
  congr 1
  funext a
  refine Fin.ext ?_
  match a with
  | ⟨0, _⟩ =>
    show GatherDims.start gd (ix1 q) idx 0 + GatherDims.batchCoord gd (ix1 q) 0 + GatherDims.offCoord gd (ix1 q) 0 = min (idx (ix2 q 0)).toInt.toNat 2047
    have hm : (0 : Fin 2) ∈ GatherDims.startIndexMap gd := List.mem_cons_self
    rw [GatherDims.batchCoord_eq_zero _ _ _ List.not_mem_nil,
      GatherDims.offCoord_eq_zero _ _ _ (fun h => ((GatherDims.mem_sKept _ _).mp h).1 hm)]
    simp only [Nat.add_zero]
    unfold GatherDims.start
    rw [dif_pos hm]
    have hsi : GatherDims.siIdx gd (ix1 q) ⟨List.idxOf (0 : Fin 2) (GatherDims.startIndexMap gd), List.idxOf_lt_length_iff.2 hm⟩ = ix2 q 0 := by
      funext b; refine Fin.ext ?_
      match b with
      | ⟨0, _⟩ => rfl
      | ⟨1, _⟩ => rfl
    rw [hsi]
    rfl
  | ⟨1, _⟩ =>
    show GatherDims.start gd (ix1 q) idx 1 + GatherDims.batchCoord gd (ix1 q) 1 + GatherDims.offCoord gd (ix1 q) 1 = min (idx (ix2 q 1)).toInt.toNat 2047
    have hm : (1 : Fin 2) ∈ GatherDims.startIndexMap gd := List.mem_cons_of_mem _ List.mem_cons_self
    rw [GatherDims.batchCoord_eq_zero _ _ _ List.not_mem_nil,
      GatherDims.offCoord_eq_zero _ _ _ (fun h => ((GatherDims.mem_sKept _ _).mp h).1 hm)]
    simp only [Nat.add_zero]
    unfold GatherDims.start
    rw [dif_pos hm]
    have hsi : GatherDims.siIdx gd (ix1 q) ⟨List.idxOf (1 : Fin 2) (GatherDims.startIndexMap gd), List.idxOf_lt_length_iff.2 hm⟩ = ix2 q 1 := by
      funext b; refine Fin.ext ?_
      match b with
      | ⟨0, _⟩ => rfl
      | ⟨1, _⟩ => rfl
    rw [hsi]
    rfl

/-- The same with the two clamped words named: the form used once they are known. -/
theorem gather_pairs_eq {α : Type} (W : S2048x2048.Idx → α) (idx : IVec S16777216x2 32) (q : Fin 16777216) (a b : ℕ)
    (ha : a < 2048) (hb : b < 2048) (ea : min (idx (ix2 q 0)).toInt.toNat 2047 = a)
    (eb : min (idx (ix2 q 1)).toInt.toNat 2047 = b) :
    Host.gather gd W idx (ix1 q) = W (ix2 ⟨a, ha⟩ ⟨b, hb⟩) := by
  subst ea; subst eb
  exact gather_pairs_apply W idx q

/-! ## An entry gathered under the test, and the whole term -/

/-- The entry gathered at a pair of taps under the test: the table's entry there when both taps lie in `[0, 2048)`,
    zero otherwise. -/
theorem tap_apply (W : FVec Ideal S2048x2048 .f32) (i j : IVec S16777216 32) (q : Fin 16777216) :
    tap W i j (ix1 q) = Cert.Bilinear.entry W (i (ix1 q)) (j (ix1 q)) := by
  show Scalar.select (IntOp.andi (valid i (ix1 q)) (valid j (ix1 q)))
      (Host.gather gd W (pairs (wrap i) (wrap j)) (ix1 q)) (Ideal.ofBits .f32 0x00000000#32) = _
  rw [valid_apply, valid_apply]
  unfold Cert.Bilinear.entry
  by_cases hi : (i (ix1 q)).toNat < 2048
  · by_cases hj : (j (ix1 q)).toNat < 2048
    · rw [if_pos hi, if_pos hj, dif_pos ⟨hi, hj⟩, show IntOp.andi 1#1 1#1 = 1#1 from by decide, select_one]
      exact gather_pairs_eq W _ q _ _ hi hj
        (by rw [pairs_apply0, wrap_apply i q hi]; exact clamp_of_lt _ hi)
        (by rw [pairs_apply1, wrap_apply j q hj]; exact clamp_of_lt _ hj)
    · rw [if_pos hi, if_neg hj, dif_neg (fun h => hj h.2), show IntOp.andi 1#1 0#1 = 0#1 from by decide, select_zero]
      exact Ideal.ofBits_zero_f32
  · have hz : ∀ b : BitVec 1, IntOp.andi 0#1 b = 0#1 := by decide
    rw [if_neg hi, dif_neg (fun h => hi h.1), hz, select_zero]
    exact Ideal.ofBits_zero_f32

/-- The reference's term at query `q` is the four-tap form at the two coordinates there. -/
theorem refTerm_apply (W : FVec Ideal S2048x2048 .f32) (x t : FVec Ideal S16777216 .f32) (q : Fin 16777216) :
    refTerm (F := Ideal) W x t (ix1 q) = Cert.Bilinear.interp W (x (ix1 q)) (t (ix1 q)) := by
  unfold refTerm Cert.Bilinear.interp
  simp only [addf_apply, mulf_apply, tap_apply, comp_apply, frac_apply, low_apply, high_apply]

end Cert.ReferenceIdeal.RefValue

end
-- ==== Proof.LibRealValued.lean ====
/-
  Real-valued arrays on the extended reals.

  At the ideal reading a float is an extended real, and the laws that join two arrangements of one
  computation (a factor moved across a sum, a variance computed two ways) hold for REAL entries only.
  A precondition says that the INPUTS are real; this module carries that fact through the host
  operations of a program, so that an intermediate array — a normalised adjacency, a propagated
  embedding, a projected feature matrix — is known to be real without ever being read at an index.

  * `IsReal x`, `IsNonneg x`, `IsPos x`: the extended real `x` is (the coercion of) a real, a real `≥ 0`,
    a real `> 0`; closed under `+`, `-`, `*`, `max`, finite sums, the quotient by a nonzero real; a
    nonnegative plus a positive is positive; the reciprocal square root of a positive is positive.
  * `AllReal v`, `AllNonneg v`, `AllPos v`: every entry is. Preserved by re-indexing (hence by
    `gather`, `broadcast_in_dim`, `slice`, `reshape`), by `pad`, by the pointwise operations, by the host's
    accumulating scatter (the exact sum of the colliding updates), by `dot_general` and by a float sum.
  * `AllReal.exists_real`: a real-valued array IS the coercion of an array of reals.
-/
import Idealize.ShloMosaic.PureOps.Ideal
import Idealize.ShloMosaic.PureOps.Contract
import Mathlib.Tactic

noncomputable section

namespace Cert.Lib.RealValued

open Idealize.ShloMosaic

/-! ## One extended real -/

/-- `x` is a real number. -/
def IsReal (x : EReal) : Prop := ∃ r : ℝ, x = (r : EReal)
/-- `x` is a real number `≥ 0`. -/
def IsNonneg (x : EReal) : Prop := ∃ r : ℝ, 0 ≤ r ∧ x = (r : EReal)
/-- `x` is a real number `> 0`. -/
def IsPos (x : EReal) : Prop := ∃ r : ℝ, 0 < r ∧ x = (r : EReal)

theorem IsPos.isNonneg {x : EReal} (h : IsPos x) : IsNonneg x := let ⟨r, hr, e⟩ := h; ⟨r, hr.le, e⟩
theorem IsNonneg.isReal {x : EReal} (h : IsNonneg x) : IsReal x := let ⟨r, _, e⟩ := h; ⟨r, e⟩
theorem IsPos.isReal {x : EReal} (h : IsPos x) : IsReal x := h.isNonneg.isReal

namespace IsReal

theorem coe (r : ℝ) : IsReal (r : EReal) := ⟨r, rfl⟩
theorem zero : IsReal (0 : EReal) := ⟨0, EReal.coe_zero.symm⟩
theorem one : IsReal (1 : EReal) := ⟨1, EReal.coe_one.symm⟩

theorem add {x y : EReal} (hx : IsReal x) (hy : IsReal y) : IsReal (x + y) := by
  obtain ⟨a, rfl⟩ := hx; obtain ⟨b, rfl⟩ := hy; exact ⟨a + b, (EReal.coe_add a b).symm⟩
theorem sub {x y : EReal} (hx : IsReal x) (hy : IsReal y) : IsReal (x - y) := by
  obtain ⟨a, rfl⟩ := hx; obtain ⟨b, rfl⟩ := hy; exact ⟨a - b, (EReal.coe_sub a b).symm⟩
theorem mul {x y : EReal} (hx : IsReal x) (hy : IsReal y) : IsReal (x * y) := by
  obtain ⟨a, rfl⟩ := hx; obtain ⟨b, rfl⟩ := hy; exact ⟨a * b, (EReal.coe_mul a b).symm⟩
theorem neg {x : EReal} (hx : IsReal x) : IsReal (-x) := by
  obtain ⟨a, rfl⟩ := hx; exact ⟨-a, (EReal.coe_neg a).symm⟩
theorem max {x y : EReal} (hx : IsReal x) (hy : IsReal y) : IsReal (max x y) := by
  obtain ⟨a, rfl⟩ := hx; obtain ⟨b, rfl⟩ := hy
  exact ⟨Max.max a b, (EReal.coe_strictMono.monotone.map_max (a := a) (b := b)).symm⟩

/-- A finite sum of reals is a real. -/
theorem sum {ι : Type*} (s : Finset ι) (f : ι → EReal) (h : ∀ i ∈ s, IsReal (f i)) : IsReal (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

/-- The quotient of a real by a nonzero real constant is a real. -/
theorem div_coe {x : EReal} (hx : IsReal x) {n : ℝ} (hn : n ≠ 0) : IsReal (Ideal.div x (n : EReal)) := by
  rw [Ideal.div_coe hn]; exact hx.mul (coe _)

theorem ne_top {x : EReal} (hx : IsReal x) : x ≠ ⊤ := by obtain ⟨a, rfl⟩ := hx; exact EReal.coe_ne_top a
theorem ne_bot {x : EReal} (hx : IsReal x) : x ≠ ⊥ := by obtain ⟨a, rfl⟩ := hx; exact EReal.coe_ne_bot a

end IsReal

namespace IsNonneg

theorem zero : IsNonneg (0 : EReal) := ⟨0, le_rfl, EReal.coe_zero.symm⟩
theorem add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩
theorem mul {x y : EReal} (hx : IsNonneg x) (hy : IsNonneg y) : IsNonneg (x * y) := by
  obtain ⟨a, ha, rfl⟩ := hx; obtain ⟨b, hb, rfl⟩ := hy; exact ⟨a * b, mul_nonneg ha hb, (EReal.coe_mul a b).symm⟩
/-- A nonnegative real plus a positive one is positive (a degree count plus the self loop). -/
theorem add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩
theorem sum {ι : Type*} (s : Finset ι) (f : ι → EReal) (h : ∀ i ∈ s, IsNonneg (f i)) : IsNonneg (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

end IsNonneg

namespace IsPos

theorem one : IsPos (1 : EReal) := ⟨1, one_pos, EReal.coe_one.symm⟩
theorem mul {x y : EReal} (hx : IsPos x) (hy : IsPos y) : IsPos (x * y) := by
  obtain ⟨a, ha, rfl⟩ := hx; obtain ⟨b, hb, rfl⟩ := hy; exact ⟨a * b, mul_pos ha hb, (EReal.coe_mul a b).symm⟩
/-- The reciprocal square root of a positive real is a positive real (no corner of `rsqrt` is met). -/
theorem rsqrt {x : EReal} (hx : IsPos x) : IsPos (Ideal.rsqrt x) := by
  obtain ⟨r, hr, rfl⟩ := hx
  rw [Ideal.rsqrt_coe, if_neg (not_lt.2 hr.le), if_neg hr.ne']
  exact ⟨_, inv_pos.2 (Real.sqrt_pos.2 hr), rfl⟩

end IsPos

/-! ## Arrays -/

/-- Every entry is a real. -/
def AllReal {ι : Type*} (v : ι → EReal) : Prop := ∀ i, IsReal (v i)
/-- Every entry is a real `≥ 0`. -/
def AllNonneg {ι : Type*} (v : ι → EReal) : Prop := ∀ i, IsNonneg (v i)
/-- Every entry is a real `> 0`. -/
def AllPos {ι : Type*} (v : ι → EReal) : Prop := ∀ i, IsPos (v i)

theorem AllPos.allNonneg {ι : Type*} {v : ι → EReal} (h : AllPos v) : AllNonneg v := fun i => (h i).isNonneg
theorem AllNonneg.allReal {ι : Type*} {v : ι → EReal} (h : AllNonneg v) : AllReal v := fun i => (h i).isReal
theorem AllPos.allReal {ι : Type*} {v : ι → EReal} (h : AllPos v) : AllReal v := fun i => (h i).isReal

/-- A real-valued array is the coercion of an array of reals. -/
theorem AllReal.exists_real {ι : Type*} {v : ι → EReal} (h : AllReal v) : ∃ r : ι → ℝ, v = fun i => (r i : EReal) :=
  ⟨fun i => (h i).choose, funext fun i => (h i).choose_spec⟩

/-- Any re-indexing of a real-valued array is real-valued. -/
theorem AllReal.reindex {ι κ : Type*} {v : ι → EReal} (h : AllReal v) (g : κ → ι) : AllReal (fun j => v (g j)) :=
  fun j => h (g j)
theorem AllNonneg.reindex {ι κ : Type*} {v : ι → EReal} (h : AllNonneg v) (g : κ → ι) : AllNonneg (fun j => v (g j)) :=
  fun j => h (g j)
theorem AllPos.reindex {ι κ : Type*} {v : ι → EReal} (h : AllPos v) (g : κ → ι) : AllPos (fun j => v (g j)) :=
  fun j => h (g j)

section Ops

variable {s t : Shape} {φ : FTy}

/-! ### Pointwise operations -/

theorem AllReal.addf {x y : FVec Ideal s φ} (hx : AllReal x) (hy : AllReal y) : AllReal (addf x y) :=
  fun i => (hx i).add (hy i)
theorem AllReal.subf {x y : FVec Ideal s φ} (hx : AllReal x) (hy : AllReal y) : AllReal (subf x y) :=
  fun i => (hx i).sub (hy i)
theorem AllReal.mulf {x y : FVec Ideal s φ} (hx : AllReal x) (hy : AllReal y) : AllReal (mulf x y) :=
  fun i => (hx i).mul (hy i)
theorem AllReal.maximumf {x y : FVec Ideal s φ} (hx : AllReal x) (hy : AllReal y) : AllReal (maximumf x y) :=
  fun i => (hx i).max (hy i)
theorem AllNonneg.add_pos {x y : FVec Ideal s φ} (hx : AllNonneg x) (hy : AllPos y) : AllPos (Idealize.ShloMosaic.addf x y) :=
  fun i => (hx i).add_pos (hy i)
theorem AllPos.mulf {x y : FVec Ideal s φ} (hx : AllPos x) (hy : AllPos y) : AllPos (Idealize.ShloMosaic.mulf x y) :=
  fun i => (hx i).mul (hy i)
/-- The host's reciprocal square root of a positive array is positive. -/
theorem AllPos.hostRsqrt {x : FVec Ideal s φ} (hx : AllPos x) : AllPos (Host.rsqrt x) :=
  fun i => (hx i).rsqrt
/-- The host's quotient by a splat nonzero real constant. -/
theorem AllReal.hostDivf_const {x y : FVec Ideal s φ} (hx : AllReal x) {n : ℝ} (hn : n ≠ 0) (hy : ∀ i, y i = (n : EReal)) :
    AllReal (Host.divf x y) :=
  fun i => by
    show IsReal (Ideal.div (x i) (y i))
    rw [hy i]; exact (hx i).div_coe hn

/-! ### Layout operations -/

theorem AllReal.broadcastInDim {x : s.Idx → EReal} (hx : AllReal x) (dims : Fin s.rank → Fin t.rank)
    (h : s.BroadcastsInDim t dims) : AllReal (broadcastInDim t dims h x) := fun _ => hx _
theorem AllPos.broadcastInDim {x : s.Idx → EReal} (hx : AllPos x) (dims : Fin s.rank → Fin t.rank)
    (h : s.BroadcastsInDim t dims) : AllPos (Idealize.ShloMosaic.broadcastInDim t dims h x) := fun _ => hx _
theorem AllReal.extractStridedSlice {x : s.Idx → EReal} (hx : AllReal x) (off : Fin s.rank → Nat) (h : s.Slices off t) :
    AllReal (extractStridedSlice t off x h) := fun _ => hx _
theorem AllReal.shapeCast {x : s.Idx → EReal} (hx : AllReal x) (h : s.ShapeCasts t) :
    AllReal (shapeCast t x h) := fun _ => hx _
/-- A padded array is real-valued when the array and the padding value are. -/
theorem AllReal.pad {x : s.Idx → EReal} (hx : AllReal x) (lo hi interior : Fin s.rank → Nat) {u : Shape} {v : u.Idx → EReal}
    (hv : AllReal v) (h : s.Pads lo hi interior t) (hu : 0 < u.numel) : AllReal (pad t lo hi interior x v h hu) := fun j => by
  unfold Idealize.ShloMosaic.pad
  split_ifs
  · exact hx _
  · exact hv _

/-! ### Gather, scatter-add, contraction, sum -/

/-- A gather reads entries of its operand. -/
theorem AllReal.gather {si : Shape} {w : Nat} {x : s.Idx → EReal} (hx : AllReal x) (d : GatherDims s si t) (idx : IVec si w) :
    AllReal (Host.gather d x idx) := fun _ => hx _
theorem AllPos.gather {si : Shape} {w : Nat} {x : s.Idx → EReal} (hx : AllPos x) (d : GatherDims s si t) (idx : IVec si w) :
    AllPos (Host.gather d x idx) := fun _ => hx _

/-- The host's accumulating scatter at the ideal reading is each operand entry plus the exact sum of the updates
    landing on it: real-valued when operand and updates are, wherever the indices point. -/
theorem AllReal.scatterAdd {si u : Shape} {w : Nat} (d : ScatterDims s si u) {x : FVec Ideal s φ} (hx : AllReal x)
    (idx : IVec si w) {upd : FVec Ideal u φ} (hu : AllReal upd) : AllReal (Host.scatterAdd d x idx upd) := fun i => by
  show IsReal (x i + ∑ j ∈ Finset.univ.filter (fun j => d.resultIdx? j idx = some i), upd j)
  exact (hx i).add (IsReal.sum _ _ fun j _ => hu j)
/-- … and nonnegative when both are (a degree count). -/
theorem AllNonneg.scatterAdd {si u : Shape} {w : Nat} (d : ScatterDims s si u) {x : FVec Ideal s φ} (hx : AllNonneg x)
    (idx : IVec si w) {upd : FVec Ideal u φ} (hu : AllNonneg upd) : AllNonneg (Host.scatterAdd d x idx upd) := fun i => by
  show IsNonneg (x i + ∑ j ∈ Finset.univ.filter (fun j => d.resultIdx? j idx = some i), upd j)
  exact (hx i).add (IsNonneg.sum _ _ fun j _ => hu j)

/-- The host's `dot_general` of real-valued operands is real-valued: a finite sum of products. -/
theorem AllReal.dotGeneral {sl sr so : Shape} {φ₁ φ₂ : FTy} (d : DotDims sl sr so) (prec : Option ContractPrecision)
    {l : FVec Ideal sl φ₁} (hl : AllReal l) {r : FVec Ideal sr φ₂} (hr : AllReal r) :
    AllReal (Host.dotGeneral d prec l r) := fun j => by
  show IsReal ((0 : EReal) + ∑ k : d.contr.Idx, l (d.lhsIdx j k) * r (d.rhsIdx j k))
  exact IsReal.zero.add (IsReal.sum _ _ fun k _ => (hl _).mul (hr _))

/-- The host's float sum of a real-valued array from a real initial value is real-valued. -/
theorem AllReal.reduceAdd {axes : List (Fin s.rank)} {u : Shape} {x : FVec Ideal s φ} (hx : AllReal x)
    {init : u.Idx → Ideal φ} (hi : AllReal init) (h : s.ReducesTo axes t) (hu : 0 < u.numel) :
    AllReal (Host.reduceAdd x init h hu) := fun j => by
  show IsReal (init (Shape.Idx.first hu) + ∑ i ∈ Finset.univ.filter (fun i => h.drop i = j), x i)
  exact (hi _).add (IsReal.sum _ _ fun i _ => hx i)

end Ops

end Cert.Lib.RealValued

end
-- ==== Proof.BilinearLaw.lean ====
/-
  The distributive law behind bilinear interpolation: on real arguments the product form of `Bilinear.lean`
  (contract the table with the spread row weights, multiply by the spread column weights, add the columns) is the
  four-tap form.

  Everything is moved to the reals first: on the extended reals multiplication does not distribute over addition
  at the infinities. With a real table and real coordinates every weight is a real, a spread weight is a real, and
  a sum over the 2048 positions of a spread weight times a function picks out the function's value at the tap
  (or nothing, when the tap lies outside `[0, 2048)`). Applying this along the rows and then along the columns
  leaves the four weighted entries.
-/
import proofs.«104155_j71270687310572_2_alg».proof.Proof.Bilinear
import proofs.«104155_j71270687310572_2_alg».proof.Proof.LibRealValued
import Mathlib.Tactic

noncomputable section

open scoped BigOperators

namespace Cert.Bilinear

open Idealize.ShloMosaic Idealize.ShloMosaic.ValueIdx Cert.Lib.RealValued

/-! ## Real weights and real entries -/

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real weight `a` on position `r` when `r`, as a 32-bit word, is the tap `i`; zero elsewhere. -/
def hotR (i : BitVec 32) (a : ℝ) (r : Fin 2048) : ℝ := if BitVec.ofNat 32 r.val = i then a else 0

/-- The value of `f` at the tap `i`; zero when the tap lies outside `[0, 2048)`. -/
def pick (f : Fin 2048 → ℝ) (i : BitVec 32) : ℝ := if h : i.toNat < 2048 then f ⟨i.toNat, h⟩ else 0

/-- The real table's entry at a pair of taps: pick the row, then the column. -/
def entryR (w : (⟨2, ![2048, 2048]⟩ : Shape).Idx → ℝ) (i j : BitVec 32) : ℝ :=
  pick (fun c => pick (fun r => w (ix2 r c)) i) j

/-- A spread real weight is the coercion of the real spread weight. -/
theorem hot_coe (i : BitVec 32) (a : ℝ) (r : Fin 2048) : hot i (a : EReal) r = ((hotR i a r : ℝ) : EReal) := by
  unfold hot hotR; split_ifs <;> simp

/-- An entry of a real table is the coercion of the real entry. -/
theorem entry_coe (w : (⟨2, ![2048, 2048]⟩ : Shape).Idx → ℝ) (i j : BitVec 32) :
    entry (fun k => ((w k : ℝ) : EReal)) i j = ((entryR w i j : ℝ) : EReal) := by
  unfold entry entryR pick
  by_cases hi : i.toNat < 2048 <;> by_cases hj : j.toNat < 2048 <;> simp [hi, hj]

/-! ## A sum against a spread weight picks out the tap -/

/-- A position below 2048, read as a 32-bit word, is the tap `i` exactly when it is `i`'s value. -/
theorem ofNat_eq_iff (i : BitVec 32) (r : Fin 2048) : BitVec.ofNat 32 r.val = i ↔ r.val = i.toNat := by
  have hr : r.val < 2048 := r.isLt
  constructor
  · rintro rfl
    rw [BitVec.toNat_ofNat]; omega
  · intro h
    apply BitVec.eq_of_toNat_eq
    rw [BitVec.toNat_ofNat, h]; have := i.isLt; omega

/-- The sum over the 2048 positions of a spread weight times `f` is the weight times `f` at the tap. -/
theorem sum_hotR (i : BitVec 32) (a : ℝ) (f : Fin 2048 → ℝ) : ∑ r : Fin 2048, hotR i a r * f r = a * pick f i := by
  unfold pick
  by_cases h : i.toNat < 2048
  · rw [dif_pos h, Finset.sum_eq_single (⟨i.toNat, h⟩ : Fin 2048)]
    · rw [hotR, if_pos ((ofNat_eq_iff i _).2 rfl)]
    · intro b _ hb
      rw [hotR, if_neg, zero_mul]
      intro e; exact hb (Fin.ext ((ofNat_eq_iff i b).1 e))
    · intro hn; exact absurd (Finset.mem_univ _) hn
  · rw [dif_neg h, mul_zero]
    refine Finset.sum_eq_zero fun r _ => ?_
    rw [hotR, if_neg, zero_mul]
    intro e; exact h (by rw [← (ofNat_eq_iff i r).1 e]; exact r.isLt)

/-- Picking a tap is linear. -/
theorem pick_lin (a b : ℝ) (f g : Fin 2048 → ℝ) (j : BitVec 32) :
    pick (fun c => a * f c + b * g c) j = a * pick f j + b * pick g j := by
  unfold pick; split_ifs <;> ring

/-! ## The law -/

/-- The distributive law on the reals, for arbitrary taps and arbitrary weights. -/
theorem law (w : (⟨2, ![2048, 2048]⟩ : Shape).Idx → ℝ) (i0 i1 j0 j1 : BitVec 32) (a b a' b' : ℝ) :
    ∑ c : Fin 2048, (∑ r : Fin 2048, (hotR i0 a r + hotR i1 b r) * w (ix2 r c)) * (hotR j0 a' c + hotR j1 b' c)
      = (((a * a') * entryR w i0 j0 + (a * b') * entryR w i0 j1) + (b * a') * entryR w i1 j0)
          + (b * b') * entryR w i1 j1 := by
  have inner : ∀ c : Fin 2048, ∑ r : Fin 2048, (hotR i0 a r + hotR i1 b r) * w (ix2 r c)
      = a * pick (fun r => w (ix2 r c)) i0 + b * pick (fun r => w (ix2 r c)) i1 := fun c => by
    simp only [add_mul, Finset.sum_add_distrib, sum_hotR]
  have outer : ∀ c : Fin 2048,
      (a * pick (fun r => w (ix2 r c)) i0 + b * pick (fun r => w (ix2 r c)) i1) * (hotR j0 a' c + hotR j1 b' c)
        = hotR j0 a' c * (a * pick (fun r => w (ix2 r c)) i0 + b * pick (fun r => w (ix2 r c)) i1)
          + hotR j1 b' c * (a * pick (fun r => w (ix2 r c)) i0 + b * pick (fun r => w (ix2 r c)) i1) := fun c => by
    ring
  simp only [inner, outer, Finset.sum_add_distrib, sum_hotR, pick_lin]
  unfold entryR
  ring

/-! ## The weights of a real coordinate are real -/

/-- The floor of a real is a real. -/
theorem flr_real {x : EReal} (hx : IsReal x) : IsReal (flr x) := by
  obtain ⟨r, rfl⟩ := hx; exact ⟨((Int.floor r : ℤ) : ℝ), rfl⟩

/-- The fractional part of a real is a real. -/
theorem fr_real {x : EReal} (hx : IsReal x) : IsReal (fr x) := hx.sub (flr_real hx)

/-- The single-precision pattern of one denotes a real. -/
theorem one_real : IsReal (Ideal.ofBits .f32 0x3F800000#32) := by
  refine ⟨1, ?_⟩
  simp [Ideal.ofBits, Ideal.ieee, -EReal.coe_mul]; norm_num

/-- One minus the fractional part of a real is a real. -/
theorem co_real {x : EReal} (hx : IsReal x) : IsReal (co x) := one_real.sub (fr_real hx)

/-- On a real table at real coordinates the product form is the four-tap form. -/
theorem byProducts_eq_interp (W : Table) (hW : ∀ i, IsReal (W i)) (x t : EReal) (hx : IsReal x) (ht : IsReal t) :
    byProducts W x t = interp W x t := by
  obtain ⟨w, rfl⟩ := AllReal.exists_real (v := W) hW
  obtain ⟨a, ha⟩ := co_real hx
  obtain ⟨b, hb⟩ := fr_real hx
  obtain ⟨a', ha'⟩ := co_real ht
  obtain ⟨b', hb'⟩ := fr_real ht
  unfold byProducts interp taps
  rw [ha, hb, ha', hb']
  simp only [hot_coe, entry_coe, ← EReal.coe_mul, ← EReal.coe_add, ← coe_sum]
  exact congrArg _ (law w (lo x) (hi x) (lo t) (hi t) a b a' b')

end Cert.Bilinear

end
-- ==== Proof.LibFiniteTest.lean ====
/-
  The precondition "every float input is finite", read back.

  A precondition `jnp.all(jnp.abs(x) < inf)` prints as: the absolute value of the array, compared `<`
  entry by entry with the splat of the pattern of `+∞`, the `i1` results reduced by `and` from `1` over
  all axes. At the ideal reading `|x| = max x (−x)`, the pattern `0x7F800000` denotes `⊤`, and `max x (−x) < ⊤`
  holds exactly of the real numbers (for `⊥` the maximum is `⊤` too). So a test that came out `1` says
  every entry is a real.

  * `ofBits_inf`            the f32 pattern `0x7F800000` denotes `⊤`;
  * `lt_of_cmp_olt`         an ordered `<` comparison that answered `1` is the order's `<`;
  * `isReal_of_abs_lt_top`  `max x (−x) < ⊤` makes `x` a real;
  * `isReal_of_test`        one entry's printed test;
  * `allReal_of_all`        the whole printed conjunct: `jnp.all(jnp.abs(x) < inf) = 1` makes `x` real-valued.
-/
import Idealize.ShloMosaic.Lib.ReduceAll
import Idealize.ShloMosaic.PureOps.Ideal
import proofs.«104155_j71270687310572_2_alg».proof.Proof.LibRealValued

noncomputable section

namespace Cert.Lib.FiniteTest

open Idealize.ShloMosaic Cert.Lib.RealValued

/-- The f32 pattern of `+∞` denotes `⊤`. -/
theorem ofBits_inf : Ideal.ofBits .f32 0x7F800000#32 = (⊤ : EReal) := by
  simp [Ideal.ofBits, Ideal.ieee]

/-- An ordered `<` that answered `1` is `<`. -/
theorem lt_of_cmp_olt {a b : EReal} (h : Ideal.cmp .olt a b = 1#1) : a < b := by
  unfold Ideal.cmp at h
  by_contra hn
  simp [hn] at h

/-- An extended real whose absolute value is below `⊤` is a real. -/
theorem isReal_of_abs_lt_top {x : EReal} (h : max x (-x) < ⊤) : IsReal x := by
  induction x using EReal.rec with
  | bot => simp at h
  | coe r => exact ⟨r, rfl⟩
  | top => simp at h

/-- One entry's test, as printed: `|x| < +∞` answered `1`. -/
theorem isReal_of_test {x : EReal}
    (h : Ideal.cmp .olt (max x (-x)) (Ideal.ofBits .f32 0x7F800000#32) = 1#1) : IsReal x := by
  rw [ofBits_inf] at h
  exact isReal_of_abs_lt_top (lt_of_cmp_olt h)

/-- The printed conjunct of one input: the `and`-reduction over all axes of `|x| < +∞` (the bound a splat of the
    pattern of `+∞` from any constant shape) is `1`; then every entry of `x` is a real. -/
theorem allReal_of_all {s t u c : Shape} [Subsingleton t.Idx] {axes : List (Fin s.rank)} (x : FVec Ideal s .f32)
    (init : u.Idx → BitVec 1) (h : s.ReducesTo axes t) (hu : 0 < u.numel)
    (dims : Fin c.rank → Fin s.rank) (hb : c.BroadcastsInDim s dims) (j : t.Idx)
    (e : Host.reduce IntOp.andi (cmpf .olt (Host.absf x) (broadcastInDim s dims hb (constant c .f32 0x7F800000#32))) init h hu j = 1#1) :
    AllReal x := fun i =>
  isReal_of_test (Host.reduce_andi_all _ init h hu j e i)

end Cert.Lib.FiniteTest

end
-- ==== Proof.Finite.lean ====
/-
  The precondition read back: the printed test "every float input is finite" answered 1, so each of the three argument
  arrays is real-valued. The test is the conjunction of one `all(|v| < +∞)` per array; a conjunction of one-bit words is 1
  only when both are, and each conjunct makes its array real-valued.
-/
import proofs.«104155_j71270687310572_2_alg».proof.Pre_finite_inputs
import proofs.«104155_j71270687310572_2_alg».proof.Proof.Gen.Pre_finite_inputs
import proofs.«104155_j71270687310572_2_alg».proof.Proof.LibFiniteTest
import Idealize.ShloMosaic.Lib.Affine
import Idealize.ShloMosaic.Lib.ValueIdx

noncomputable section

namespace Cert.Finite

open Idealize.ShloMosaic Cert.Lib.RealValued Cert.Lib.FiniteTest Cert.Pre_finite_inputs Cert.Pre_finite_inputs.Facts

/-- The scalar shape has one index. -/
instance : Subsingleton S_.Idx := ⟨fun _ _ => funext fun d => d.elim0⟩

/-- The finiteness test answered 1: the three arrays are real-valued. -/
theorem allReal_of_pre (x t : FVec Ideal S16777216 .f32) (W : FVec Ideal S2048x2048 .f32)
    (h : Cert.Pre_finite_inputs.fn (F := Ideal) x t W = fun _ => 1#1) : AllReal x ∧ AllReal t ∧ AllReal W := by
  have h0 := congrFun h ValueIdx.ix0
  dsimp only [Cert.Pre_finite_inputs.fn] at h0
  obtain ⟨h01, h2⟩ := IntOp.andi_eq_one.1 h0
  obtain ⟨hx, ht⟩ := IntOp.andi_eq_one.1 h01
  exact ⟨allReal_of_all x _ _ _ _ _ _ hx, allReal_of_all t _ _ _ _ _ _ ht, allReal_of_all W _ _ _ _ _ _ h2⟩

end Cert.Finite

end
-- ==== Proof.lean ====
/-
  The kernel computes a bilinear interpolation of a 2048 × 2048 table at 2^24 points (x, t) by products: for each
  point it spreads the two row weights over the 2048 rows, contracts the table with them, multiplies the resulting
  row of the table column by column with the two column weights spread the same way, and adds the columns up. The
  reference interpolates with four taps: per pair of (row tap, column tap) it gathers the table's entry, replaces it by
  zero where a tap lies outside the table, weights it with the product of the two taps' weights, and adds the four.

  Both read the same floors, fractional parts, lower taps (the floor as a signed 32-bit word) and upper taps (the next
  word), and a row or column position matches a tap exactly when the tap lies in [0, 2048). On finite inputs every
  quantity is a real number, and there the product form is the four-tap form by the distributive law
  (`Bilinear.byProducts_eq_interp`); this is where the precondition is used (`Finite.allReal_of_pre`).

  * the kernel programs' frames are the generated frame certificates;
  * the reference's run (`RefValue.run`) ends with its result at `RefValue.refTerm` of the arguments, which read at a
    point is the four-tap form (`RefValue.refTerm_apply`); its frame is that run with the result dropped;
  * the idealized kernel's run (`KernelIdeal.Array.run`) ends with its result at the product form, entry by entry;
  * the ideal pass rewrote nothing, so the idealization claim has no conjunct.
-/
import proofs.«104155_j71270687310572_2_alg».proof.Defs
import proofs.«104155_j71270687310572_2_alg».proof.Proof.Gen.Kernel
import proofs.«104155_j71270687310572_2_alg».proof.Proof.Gen.Kernel.Frame
import proofs.«104155_j71270687310572_2_alg».proof.Proof.Gen.KernelIdeal
import proofs.«104155_j71270687310572_2_alg».proof.Proof.Gen.KernelIdeal.Frame
import proofs.«104155_j71270687310572_2_alg».proof.Proof.Gen.ReferenceIdeal
import proofs.«104155_j71270687310572_2_alg».proof.Proof.Gen.Pre_finite_inputs
import proofs.«104155_j71270687310572_2_alg».proof.Proof.KernelArray
import proofs.«104155_j71270687310572_2_alg».proof.Proof.RefRun
import proofs.«104155_j71270687310572_2_alg».proof.Proof.RefRead
import proofs.«104155_j71270687310572_2_alg».proof.Proof.BilinearLaw
import proofs.«104155_j71270687310572_2_alg».proof.Proof.Finite
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- From memories agreeing on finite arguments the kernel ends at the product form and the reference at the four-tap
    form of the same table and coordinates, point by point: one real number. -/
theorem algebraic : Cert.algebraic_KernelIdeal_ReferenceIdeal := by
  intro m ρ m' ρ' hpre hagree
  refine ⟨_, Cert.KernelIdeal.Array.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2]
  obtain ⟨hx, ht, hW⟩ := Cert.Finite.allReal_of_pre _ _ _ (hpre c)
  funext i
  obtain ⟨q, rfl⟩ : ∃ q : Fin 16777216, i = ix1 q := ⟨i 0, eq_ix1 i⟩
  rw [Cert.ReferenceIdeal.RefValue.refTerm_apply]
  exact (Cert.Bilinear.byProducts_eq_interp _ hW _ _ (hx _) (ht _)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
